-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 46
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S1x64, .f32⟩
  | .hbm, ⟨44, _⟩ => ⟨S1x40, .f32⟩
  | .hbm, ⟨45, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S40_S1x40 : S40.ShapeCasts S1x40
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x40.size a ≤ S64x40.size a
  hwx1_6 : ∀ i : grid1.Coords, EltTy.bits .f32 = 32 ∨ (Rect.block (s := S64x40) S64x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x40.size a ≤ S1x40.size a
  hwx1_7 : ∀ i : grid1.Coords, EltTy.bits .f32 = 32 ∨ (Rect.block (s := S1x40) S1x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x40.size a ≤ S100000x40.size a
  hwx1_8 : ∀ i : grid1.Coords, EltTy.bits .f32 = 32 ∨ (Rect.block (s := S100000x40) S5000x40.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S5000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x40, .f32⟩
  | .hbm, ⟨64, _⟩ => ⟨S1x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x40, .f32⟩
  | .hbm, ⟨81, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v45 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel program's run with its RESULT named.

  The program is four stretches in order: host operations, the first pipelined region, host operations, the
  second pipelined region.  The contents of every buffer at each of the five boundaries are a fold from the launch
  memory: a host stretch applies its operations in order, a region replaces each of its output arrays by the fold of
  its grid points' write-backs and leaves every other buffer alone.  The last boundary's contents are `Gen.W4`.
  The final state agrees with `Gen.W4` at every unscoped buffer; read at the argument arrays that gives the frame
  claim, and read at the result array it names the result: the statement below has both.
-/
import proofs.«166975_j85272280694875_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds the last
    boundary's contents at its reference, and every argument array what it held at launch. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Agg.lean ====
/-
  The neighbour sum both programs compute on the host, as ONE function.

  Row 0 of the edge list holds each edge's source node and row 1 its destination.  A source index below zero is
  moved up by the node count; the rows of the feature matrix at the sources are gathered, one per edge, and added
  into a zero matrix at the destinations' rows.  Both programs spell this with the same operations on the same
  words, so the proofs only ever need it as a function applied to equal arguments: it is never opened.
-/
import proofs.«166975_j85272280694875_1_alg».proof.ReferenceIdeal
import proofs.«166975_j85272280694875_1_alg».proof.Proof.Gen.ReferenceIdeal

noncomputable section

namespace Cert.Gin

open Cert.ReferenceIdeal Cert.ReferenceIdeal.Gen Idealize.ShloMosaic

variable {F : FTy → Type} [FloatOps F]

/-- Row 0 of the edge list: the edges' source nodes. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the edges' destination nodes. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's index column: a source below zero moved up by the node count. -/
def srcCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter's index column. -/
def dstCol (dst : (⟨S1600000, .i32⟩ : BufTy).Contents (Elt F)) : (⟨S1600000x1, .i32⟩ : BufTy).Contents (Elt F) :=
  broadcastInDim S1600000x1 ![0] bcast_S1600000_S1600000x1_0 dst

/-- The neighbour sum of a 128-column feature matrix, from the two rows of the edge list. -/
def aggRows128 (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol dst)
    (Host.gather gather_S100000x128_S1600000x1_S1600000x128_1_0_n_n_0_1_1128 x (srcCol src))

/-- The neighbour sum of a 64-column feature matrix, from the two rows of the edge list. -/
def aggRows64 (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol dst)
    (Host.gather gather_S100000x64_S1600000x1_S1600000x64_1_0_n_n_0_1_164 h (srcCol src))

/-- The neighbour sum of a 128-column feature matrix, from the edge list. -/
def agg128 (x : (⟨S100000x128, .f32⟩ : BufTy).Contents (Elt F)) (e : (⟨S2x1600000, .i32⟩ : BufTy).Contents (Elt F)) :
    (⟨S100000x128, .f32⟩ : BufTy).Contents (Elt F) :=
  aggRows128 x (srcRow e) (dstRow e)

/-- The neighbour sum of a 64-column feature matrix, from the edge list. -/
def agg64 (h : (⟨S100000x64, .f32⟩ : BufTy).Contents (Elt F)) (e : (⟨S2x1600000, .i32⟩ : BufTy).Contents (Elt F)) :
    (⟨S100000x64, .f32⟩ : BufTy).Contents (Elt F) :=
  aggRows64 h (srcRow e) (dstRow e)

end Cert.Gin

end
-- ==== Proof.KernelHost.lean ====
/-
  The host operations around the two regions, read from ANY buffer contents `U`.

  Before the first region the program slices the edge list into its two rows, forms the neighbour sum of the features
  and casts the first bias to a row.  Between the regions it forms the neighbour sum of the hidden features from the
  two rows the first stretch left, and casts the other three biases to rows.  Each fact below names what one buffer
  holds after a stretch as a function of what the buffers held before it; the neighbour sums are the shared functions
  of Agg.lean (the same operations on the same words), which are never opened.
-/
import proofs.«166975_j85272280694875_1_alg».proof.Proof.Gen.KernelIdeal.Frame
import proofs.«166975_j85272280694875_1_alg».proof.Proof.Agg
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.ShloMosaic.StableHlo
open Idealize.SL.Sem

variable (U : Valuation τ sig (Elt Ideal))

/-! ## The host operations before the first region, from any contents `U` -/

/-- They leave the neighbour sum of the features in the first region's second operand. -/
theorem pre_v13 : after (hostOps0 (F := Ideal)) U (Proc.devRef .tc main_v13)
    = Cert.Gin.agg128 (F := Ideal) (U (Proc.devRef .tc main_arg0)) (U (Proc.devRef .tc main_arg1)) := by
  dsimp only [hostOps0]; after_results; rfl

/-- The first bias as a one-row matrix. -/
theorem pre_v14 : after (hostOps0 (F := Ideal)) U (Proc.devRef .tc main_v14)
    = shapeCast S1x64 (U (Proc.devRef .tc main_arg3)) shapeCasts_S64_S1x64 := by
  dsimp only [hostOps0]; after_results; rfl

/-- The two rows of the edge list, which the later stretch reads again. -/
theorem pre_v1 : after (hostOps0 (F := Ideal)) U (Proc.devRef .tc main_v1)
    = Cert.Gin.srcRow (F := Ideal) (U (Proc.devRef .tc main_arg1)) := by
  dsimp only [hostOps0]; after_results; rfl
theorem pre_v3 : after (hostOps0 (F := Ideal)) U (Proc.devRef .tc main_v3)
    = Cert.Gin.dstRow (F := Ideal) (U (Proc.devRef .tc main_arg1)) := by
  dsimp only [hostOps0]; after_results; rfl

/-- They write no argument. -/
theorem pre_arg0 : after (hostOps0 (F := Ideal)) U (Proc.devRef .tc main_arg0) = U (Proc.devRef .tc main_arg0) := by
  dsimp only [hostOps0]; after_results
theorem pre_arg2 : after (hostOps0 (F := Ideal)) U (Proc.devRef .tc main_arg2) = U (Proc.devRef .tc main_arg2) := by
  dsimp only [hostOps0]; after_results
theorem pre_arg4 : after (hostOps0 (F := Ideal)) U (Proc.devRef .tc main_arg4) = U (Proc.devRef .tc main_arg4) := by
  dsimp only [hostOps0]; after_results
theorem pre_arg5 : after (hostOps0 (F := Ideal)) U (Proc.devRef .tc main_arg5) = U (Proc.devRef .tc main_arg5) := by
  dsimp only [hostOps0]; after_results
theorem pre_arg6 : after (hostOps0 (F := Ideal)) U (Proc.devRef .tc main_arg6) = U (Proc.devRef .tc main_arg6) := by
  dsimp only [hostOps0]; after_results
theorem pre_arg7 : after (hostOps0 (F := Ideal)) U (Proc.devRef .tc main_arg7) = U (Proc.devRef .tc main_arg7) := by
  dsimp only [hostOps0]; after_results
theorem pre_arg8 : after (hostOps0 (F := Ideal)) U (Proc.devRef .tc main_arg8) = U (Proc.devRef .tc main_arg8) := by
  dsimp only [hostOps0]; after_results
theorem pre_arg9 : after (hostOps0 (F := Ideal)) U (Proc.devRef .tc main_arg9) = U (Proc.devRef .tc main_arg9) := by
  dsimp only [hostOps0]; after_results

/-! ## The host operations between the regions, from any contents `U` -/

/-- They leave the neighbour sum of the hidden features (the first region's output) in the second region's second
    operand, from the two rows of the edge list the first stretch left. -/
theorem mid_v25 : after (hostOps1 (F := Ideal)) U (Proc.devRef .tc main_v25)
    = Cert.Gin.aggRows64 (F := Ideal) (U (Proc.devRef .tc main_v15)) (U (Proc.devRef .tc main_v1)) (U (Proc.devRef .tc main_v3)) := by
  dsimp only [hostOps1]; after_results; rfl

/-- The three later biases as one-row matrices. -/
theorem mid_v26 : after (hostOps1 (F := Ideal)) U (Proc.devRef .tc main_v26)
    = shapeCast S1x64 (U (Proc.devRef .tc main_arg5)) shapeCasts_S64_S1x64 := by
  dsimp only [hostOps1]; after_results; rfl
theorem mid_v27 : after (hostOps1 (F := Ideal)) U (Proc.devRef .tc main_v27)
    = shapeCast S1x64 (U (Proc.devRef .tc main_arg7)) shapeCasts_S64_S1x64 := by
  dsimp only [hostOps1]; after_results; rfl
theorem mid_v28 : after (hostOps1 (F := Ideal)) U (Proc.devRef .tc main_v28)
    = shapeCast S1x40 (U (Proc.devRef .tc main_arg9)) shapeCasts_S40_S1x40 := by
  dsimp only [hostOps1]; after_results; rfl

/-- They write neither the hidden features nor a weight matrix. -/
theorem mid_v15 : after (hostOps1 (F := Ideal)) U (Proc.devRef .tc main_v15) = U (Proc.devRef .tc main_v15) := by
  dsimp only [hostOps1]; after_results
theorem mid_arg4 : after (hostOps1 (F := Ideal)) U (Proc.devRef .tc main_arg4) = U (Proc.devRef .tc main_arg4) := by
  dsimp only [hostOps1]; after_results
theorem mid_arg6 : after (hostOps1 (F := Ideal)) U (Proc.devRef .tc main_arg6) = U (Proc.devRef .tc main_arg6) := by
  dsimp only [hostOps1]; after_results
theorem mid_arg8 : after (hostOps1 (F := Ideal)) U (Proc.devRef .tc main_arg8) = U (Proc.devRef .tc main_arg8) := by
  dsimp only [hostOps1]; after_results

end Cert.KernelIdeal.HostValue

end
-- ==== Proof.Spec.lean ====
/-
  The node classifier, as plain functions of matrices of extended reals.

  A matrix is a function of a row and a column index.  Every layer is "row p of the input against column o of a
  weight matrix, plus the bias at o"; two of them are followed by the positive part.  The last step takes each
  row's logarithm of its share of the exponentials: with m the row's largest entry,
      out(p, o) = (y(p, o) - m(p)) - log (sum over o' of exp (y(p, o') - m(p))).
  The float zero and the float minus infinity are kept as the words the programs spell them with: both programs
  spell the same words at the same places, so what they denote is never needed.
-/
import Idealize.ShloMosaic.PureOps.Ideal
import Idealize.ShloMosaic.PureOps.Ideal.Laws
import Idealize.ShloMosaic.Lib.ValueIdx

noncomputable section

namespace Cert.Gin

open Idealize.ShloMosaic

/-- The word of the float zero, read as an extended real. -/
abbrev zeroWord : EReal := Ideal.ofBits .f32 0x00000000#32
/-- The word of the float minus infinity, read as an extended real. -/
abbrev negInfWord : EReal := Ideal.ofBits .f32 0xFF800000#32

/-- One dense layer: entry (p, o) is the sum over j of x(p, j) · w(j, o), plus the bias b(o). -/
def dense {n k d : ℕ} (x : Fin n → Fin k → EReal) (w : Fin k → Fin d → EReal) (b : Fin d → EReal) :
    Fin n → Fin d → EReal :=
  fun p o => (∑ j : Fin k, x p j * w j o) + b o

/-- A dense layer followed by the positive part (the larger of the entry and the zero word). -/
def denseRelu {n k d : ℕ} (x : Fin n → Fin k → EReal) (w : Fin k → Fin d → EReal) (b : Fin d → EReal) :
    Fin n → Fin d → EReal :=
  fun p o => max (dense x w b p o) zeroWord

/-- The largest entry of a row, folded from the minus-infinity word. -/
def rowMax {n d : ℕ} (y : Fin n → Fin d → EReal) : Fin n → EReal :=
  fun p => (Finset.univ : Finset (Fin d)).fold max negInfWord (fun o => y p o)

/-- A row shifted down by its largest entry. -/
def shifted {n d : ℕ} (y : Fin n → Fin d → EReal) : Fin n → Fin d → EReal :=
  fun p o => y p o - rowMax y p

/-- The logarithm of each entry's share of its row's exponentials, computed on the shifted row. -/
def logSoftmax {n d : ℕ} (y : Fin n → Fin d → EReal) : Fin n → Fin d → EReal :=
  fun p o => shifted y p o - Ideal.log (∑ o' : Fin d, Ideal.exp (shifted y p o'))

/-- The first graph layer: the node's own features plus its neighbours' sum, through a dense layer and the
    positive part. -/
def layer1 {n k d : ℕ} (x a : Fin n → Fin k → EReal) (w : Fin k → Fin d → EReal) (b : Fin d → EReal) :
    Fin n → Fin d → EReal :=
  denseRelu (fun p j => x p j + a p j) w b

/-- The second graph layer, the two classifier layers and the row-wise log-softmax. -/
def head {n k d e : ℕ} (h a : Fin n → Fin k → EReal) (w2 : Fin k → Fin d → EReal) (b2 : Fin d → EReal)
    (wf1 : Fin d → Fin d → EReal) (bf1 : Fin d → EReal) (wf2 : Fin d → Fin e → EReal) (bf2 : Fin e → EReal) :
    Fin n → Fin e → EReal :=
  logSoftmax (dense (denseRelu (layer1 h a w2 b2) wf1 bf1) wf2 bf2)

/-- Folding `max` from a start value gives a result that already dominates the start value. -/
theorem max_fold_max_self {ι : Type} (s : Finset ι) (b : EReal) (f : ι → EReal) :
    max b (s.fold max b f) = s.fold max b f := by
  classical
  induction s using Finset.induction_on with
  | empty => rw [Finset.fold_empty, max_self]
  | insert a s ha ih => rw [Finset.fold_insert ha, max_left_comm, ih]

end Cert.Gin

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.Layer1Value.lean ====
/-
  The first pipelined region's output array, as ONE function of the arrays the region finds.

  The region walks twenty blocks of 5000 rows.  At each it stores the positive part of
  (block of x + block of the neighbour sum) · W + bias row.  Every output row depends only on the same row of the two
  blocked inputs, so block t of the output is block t of one whole-array function `G0`; the twenty blocks tile the
  array (row r lies in block r / 5000), so after the region the array IS `G0` of the arrays found at entry.
-/
import proofs.«166975_j85272280694875_1_alg».proof.Proof.Gen.KernelIdeal.Frame
import proofs.«166975_j85272280694875_1_alg».proof.Proof.Spec
import proofs.«166975_j85272280694875_1_alg».proof.Proof.LibPlainDot
import Idealize.ShloMosaic.Lib.ValueLayout
import Idealize.ShloMosaic.Lib.Pipeline.Value

noncomputable section

namespace Cert.KernelIdeal.Layer1

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

/-- The body's stored value at entry (p, o) of a block: the block's rows of `x` and of the neighbour sum added,
    row p against column o of the weights (the matrix unit's product into a zero accumulator is that sum; the
    narrowing of its operands is the identity on the extended reals), plus the bias row at o, then the positive
    part. -/
theorem pay_apply (v0 v1 : Vec Ideal S5000x128 .f32) (v5 : Vec Ideal S128x64 .f32) (v8 : Vec Ideal S1x64 .f32)
    (p : Fin 5000) (o : Fin 64) :
    k0_pay1 (F := Ideal) v0 v1 v5 v8 (ix2 p o)
      = layer1 (fun p j => v0 (ix2 p j)) (fun p j => v1 (ix2 p j)) (fun j o => v5 (ix2 j o)) (fun o => v8 (ix2 (0 : Fin 1) o)) p o := by
  unfold k0_pay1 layer1 denseRelu dense
  dsimp only
  rw [shapeCast_self, shapeCast_self]
  refine congrArg₂ max (congrArg₂ (· + ·) ?_ ?_) rfl
  · exact LibPlainDot.matmul_zero_apply _ rfl rfl rfl rfl rfl rfl none _ _ p o
  · exact broadcastTo_1b_ab_apply v8 _ p o

/-- The whole output array of the first region as ONE function of the arrays the region finds: entry (r, o) from row
    r of `X` and of `A`, column o of `W`, entry o of the bias row `B`. -/
def G0 (X A : S100000x128.Idx → EReal) (W : S128x64.Idx → EReal) (B : S1x64.Idx → EReal) : S100000x64.Idx → EReal :=
  fun i => layer1 (fun p j => X (ix2 p j)) (fun p j => A (ix2 p j)) (fun j o => W (ix2 j o)) (fun o => B (ix2 (0 : Fin 1) o)) (i 0) (i 1)

theorem hz : (![0, 0] : Fin 2 → Nat) = fun _ => 0 := funext fun a => by fin_cases a <;> rfl

/-- The index maps over the grid: at point t the two row-blocked inputs and the output sit at row block t, column
    block 0; the weights and the bias row are their whole arrays. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row p of point t's block of `x` is row 5000·t + p of the array. -/
theorem read0 (c : Dev nD) (t : Fin cfg0.N) (p : Fin 5000) (j : Fin 128) (r : Fin 100000) (hr : r.val = t.val * 5000 + p.val) :
    iblk0 V c 0 t (ix2 p j) = V c main_arg0 (ix2 r j) := by
  obtain ⟨e0, e1, -, -, -, -, -, -, e8, -⟩ := idx_facts t
  show V c main_arg0 (((cfg0.win 0).blk t).view.emb (ix2 p j)) = V c main_arg0 (ix2 r j)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- The same for the neighbour sum. -/
theorem read1 (c : Dev nD) (t : Fin cfg0.N) (p : Fin 5000) (j : Fin 128) (r : Fin 100000) (hr : r.val = t.val * 5000 + p.val) :
    iblk0 V c 1 t (ix2 p j) = V c main_v13 (ix2 r j) := by
  obtain ⟨-, -, e2, e3, -, -, -, -, e8, -⟩ := idx_facts t
  show V c main_v13 (((cfg0.win 1).blk t).view.emb (ix2 p j)) = V c main_v13 (ix2 r j)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

/-- The weights' block is the whole weight matrix. -/
theorem read2 (c : Dev nD) (t : Fin cfg0.N) (j : Fin 128) (o : Fin 64) :
    iblk0 V c 2 t (ix2 j o) = V c main_arg2 (ix2 j o) := by
  obtain ⟨-, -, -, -, e4, e5, -, -, -, -⟩ := idx_facts t
  show V c main_arg2 (((cfg0.win 2).blk t).view.emb (ix2 j o)) = V c main_arg2 (ix2 j o)
  refine congrArg _ (funext fun a => Fin.ext ?_)
  match a with
  | ⟨0, _⟩ => show win0_2.index t (0 : Fin 2) * 128 + 1 * j.val = j.val; omega
  | ⟨1, _⟩ => show win0_2.index t (1 : Fin 2) * 64 + 1 * o.val = o.val; omega

/-- The bias row's block is the whole bias row. -/
theorem read3 (c : Dev nD) (t : Fin cfg0.N) (o : Fin 64) :
    iblk0 V c 3 t (ix2 (0 : Fin 1) o) = V c main_v14 (ix2 (0 : Fin 1) o) := by
  obtain ⟨-, -, -, -, -, -, e6, e7, -, -⟩ := idx_facts t
  show V c main_v14 (((cfg0.win 3).blk t).view.emb (ix2 (0 : Fin 1) o)) = V c main_v14 (ix2 (0 : Fin 1) o)
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 64 + 1 * o.val = o.val; omega

set_option maxHeartbeats 1000000 in
/-- What grid point t writes back is block t of `G0` of the arrays the region finds. -/
theorem flushed_eq (c : Dev nD) (t : Fin cfg0.N) :
    (dat0 V c).flushed 4 t = ((cfg0.win 4).blk t).view.read (Elt Ideal)
      (G0 (V c main_arg0) (V c main_v13) (V c main_arg2) (V c main_v14)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S1x64) hz]
  obtain ⟨-, -, -, -, -, -, -, -, e8, e9⟩ := idx_facts t
  have ht : t.val < 20 := t.isLt
  funext j
  obtain ⟨p, o, rfl⟩ : ∃ (p : Fin 5000) (o : Fin 64), j = ix2 p o := ⟨j 0, j 1, eq_ix2 j⟩
  have hr : t.val * 5000 + p.val < 100000 := by have := p.isLt; omega
  have hemb : ((cfg0.win 4).blk t).view.emb (ix2 p o) = ix2 (⟨t.val * 5000 + p.val, hr⟩ : Fin 100000) o := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * o.val = o.val; omega
  show k0_pay1 (iblk0 V c 0 t) (iblk0 V c 1 t) (iblk0 V c 2 t) (iblk0 V c 3 t) (ix2 p o)
    = G0 (V c main_arg0) (V c main_v13) (V c main_arg2) (V c main_v14) (((cfg0.win 4).blk t).view.emb (ix2 p o))
  rw [hemb]
  refine (pay_apply _ _ _ _ p o).trans ?_
  show layer1 _ _ _ _ p o = layer1 _ _ _ _ (⟨t.val * 5000 + p.val, hr⟩ : Fin 100000) o
  unfold layer1 denseRelu dense
  refine congrArg₂ max (congrArg₂ (· + ·) (Finset.sum_congr rfl fun j _ => ?_) (read3 V c t o)) rfl
  exact congrArg₂ (· * ·) (congrArg₂ (· + ·) (read0 V c t p j _ rfl) (read1 V c t p j _ rfl)) (read2 V c t j o)

/-- An index of the output array is in point t's block iff each coordinate is in the block's range. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15).slice (win0_4.rect t)).set ↔ _
  rw [View.set_slice_whole, Rect.mem_set_unit]
  exact Iff.rfl

/-- Every row of the output array is in the block of the point that holds it: row r in block r / 5000. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hq : (i 0).val / 5000 < 20 := by omega
  refine ⟨⟨(i 0).val / 5000, hq⟩, flush0_4 _, ?_⟩
  rw [mem_blk]
  obtain ⟨-, -, -, -, -, -, -, -, e8, e9⟩ := idx_facts ⟨(i 0).val / 5000, hq⟩
  have e8' : win0_4.index ⟨(i 0).val / 5000, hq⟩ (0 : Fin 2) = (i 0).val / 5000 := e8
  intro a
  match a with
  | ⟨0, _⟩ =>
    show win0_4.index ⟨(i 0).val / 5000, hq⟩ (0 : Fin 2) * 5000 ≤ (i 0).val ∧ (i 0).val < win0_4.index ⟨(i 0).val / 5000, hq⟩ (0 : Fin 2) * 5000 + 5000
    omega
  | ⟨1, _⟩ =>
    show win0_4.index ⟨(i 0).val / 5000, hq⟩ (1 : Fin 2) * 64 ≤ (i 1).val ∧ (i 1).val < win0_4.index ⟨(i 0).val / 5000, hq⟩ (1 : Fin 2) * 64 + 64
    omega

/-- The output array after the region: `G0` of the arrays the region finds. -/
theorem final (c : Dev nD) :
    (dat0 V c).arrAt 4 cfg0.N = G0 (V c main_arg0) (V c main_v13) (V c main_arg2) (V c main_v14) :=
  (dat0 V c).arrAt_eq_of_cover 4 _ (fun t _ => flushed_eq V c t) cover

end Cert.KernelIdeal.Layer1

end
-- ==== Proof.SpecRows.lean ====
/-
  The network's tail is computed row by row: entry (p, o) of its output depends on the hidden features and on their
  neighbour sum only through row p.  So two inputs that agree on a row (a block of an array and the array itself, the
  row sitting at different row numbers) give the same output on that row.
-/
import proofs.«166975_j85272280694875_1_alg».proof.Proof.Spec

noncomputable section

namespace Cert.Gin

/-- Row `p` of the tail on `(h, a)` is row `p'` of the tail on `(h', a')` when those rows of the inputs agree. -/
theorem head_row_congr {n n' k d e : ℕ} (h a : Fin n → Fin k → EReal) (h' a' : Fin n' → Fin k → EReal)
    (w2 : Fin k → Fin d → EReal) (b2 : Fin d → EReal) (wf1 : Fin d → Fin d → EReal) (bf1 : Fin d → EReal)
    (wf2 : Fin d → Fin e → EReal) (bf2 : Fin e → EReal) (p : Fin n) (p' : Fin n')
    (hh : ∀ j, h p j = h' p' j) (ha : ∀ j, a p j = a' p' j) (o : Fin e) :
    head h a w2 b2 wf1 bf1 wf2 bf2 p o = head h' a' w2 b2 wf1 bf1 wf2 bf2 p' o := by
  simp only [head, logSoftmax, shifted, rowMax, dense, denseRelu, layer1, hh, ha]

end Cert.Gin

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.HeadValue.lean ====
/-
  The second pipelined region's output array, as ONE function of the arrays the region finds.

  The region walks twenty blocks of 5000 rows.  At each it computes, on the block's rows of the hidden features and of
  their neighbour sum, the second graph layer, the two classifier layers and the row-wise log-softmax, and stores the
  result.  Every output row depends only on the same row of the two blocked inputs (and on the whole weight matrices
  and bias rows), so block t of the output is block t of one whole-array function `G1`; the twenty blocks tile the
  array, so after the region the array IS `G1` of the arrays found at entry.
-/
import proofs.«166975_j85272280694875_1_alg».proof.Proof.Gen.KernelIdeal.Frame
import proofs.«166975_j85272280694875_1_alg».proof.Proof.Spec
import proofs.«166975_j85272280694875_1_alg».proof.Proof.SpecRows
import proofs.«166975_j85272280694875_1_alg».proof.Proof.LibPlainDot
import proofs.«166975_j85272280694875_1_alg».proof.Proof.LibRowReduce
import proofs.«166975_j85272280694875_1_alg».proof.Proof.LibKeepdims
import Idealize.ShloMosaic.Lib.ValueLayout
import Idealize.ShloMosaic.Lib.Pipeline.Value

noncomputable section

namespace Cert.KernelIdeal.Head

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

/-- A 64-to-64 dense layer with the positive part, on a block of 5000 rows: if the block's input reads `ξ` entry by
    entry, its output at (p, o) is the layer of `ξ` at (p, o). -/
theorem reluLayer_at (x : FVec Ideal S5000x64 .f32) (w : Vec Ideal S64x64 .f32) (b : Vec Ideal S1x64 .f32)
    (ξ : Fin 5000 → Fin 64 → EReal) (hx : ∀ p j, x (ix2 p j) = ξ p j)
    (hb : FTy.bits .bf16 < FTy.bits .f32) (hbc : S1x64.Broadcasts S5000x64) (p : Fin 5000) (o : Fin 64) :
    maximumf (addf (matmul dot_S5000x64_S64x64_S5000x64_1_0_0_1_n_n none (truncf .bf16 x hb) (truncf .bf16 w hb)
        (constant S5000x64 .f32 0x00000000#32)) (broadcastTo S5000x64 b hbc))
      (broadcast S5000x64 (Scalar.ofBits (F := Ideal) .f32 0x00000000#32)) (ix2 p o)
      = denseRelu ξ (fun j o => w (ix2 j o)) (fun o => b (ix2 (0 : Fin 1) o)) p o := by
  unfold denseRelu dense
  refine congrArg₂ max (congrArg₂ (· + ·) ?_ ?_) rfl
  · refine (LibPlainDot.matmul_zero_apply _ rfl rfl rfl rfl rfl rfl none _ _ p o).trans ?_
    exact Finset.sum_congr rfl fun j _ => congrArg (· * w (ix2 j o)) (hx p j)
  · exact broadcastTo_1b_ab_apply b _ p o

/-- The last dense layer (64 to 40, no positive part) on a block of 5000 rows. -/
theorem logits_at (x : FVec Ideal S5000x64 .f32) (w : Vec Ideal S64x40 .f32) (b : Vec Ideal S1x40 .f32)
    (ξ : Fin 5000 → Fin 64 → EReal) (hx : ∀ p j, x (ix2 p j) = ξ p j)
    (hb : FTy.bits .bf16 < FTy.bits .f32) (hbc : S1x40.Broadcasts S5000x40) (p : Fin 5000) (o : Fin 40) :
    addf (matmul dot_S5000x64_S64x40_S5000x40_1_0_0_1_n_n none (truncf .bf16 x hb) (truncf .bf16 w hb)
        (constant S5000x40 .f32 0x00000000#32)) (broadcastTo S5000x40 b hbc) (ix2 p o)
      = dense ξ (fun j o => w (ix2 j o)) (fun o => b (ix2 (0 : Fin 1) o)) p o := by
  unfold dense
  refine congrArg₂ (· + ·) ?_ ?_
  · refine (LibPlainDot.matmul_zero_apply _ rfl rfl rfl rfl rfl rfl none _ _ p o).trans ?_
    exact Finset.sum_congr rfl fun j _ => congrArg (· * w (ix2 j o)) (hx p j)
  · exact broadcastTo_1b_ab_apply b _ p o

/-- A block of logits minus each row's largest entry (the row maximum kept as a column and spread back over the
    row). -/
theorem shift_at (L : FVec Ideal S5000x40 .f32) (ℓ : Fin 5000 → Fin 40 → EReal) (hL : ∀ p o, L (ix2 p o) = ℓ p o)
    (h1 : S5000x40.Reduces [1] S5000) (hφ : FKind.Formats .f32) (hacc : (0xFF800000#32 : BitVec 32) = FKind.maximumf.neutral .f32 hφ)
    (h2 : S5000.ShapeCasts S5000x1) (h3 : S5000x1.Broadcasts S5000x40) (p : Fin 5000) (o : Fin 40) :
    subf L (broadcastTo S5000x40 (shapeCast S5000x1 (multiReduction .maximumf [1] S5000 L 0xFF800000#32 h1 hφ hacc) h2) h3) (ix2 p o)
      = shifted ℓ p o := by
  unfold shifted rowMax
  show L (ix2 p o) - broadcastTo S5000x40 _ h3 (ix2 p o) = _
  refine congrArg₂ (· - ·) (hL p o) ?_
  refine (LibKeepdims.broadcastTo_a1_ab_apply _ h3 p o).trans ?_
  refine (LibKeepdims.shapeCast_a_a1_apply _ h2 p 0).trans ?_
  refine (LibRowReduce.multiReduction_max_row L _ h1 hφ hacc p).trans ?_
  exact congrArg (Finset.fold max negInfWord · Finset.univ) (funext fun o' => hL p o')

/-- The last stored value: each entry minus the logarithm of its row's sum of exponentials. -/
theorem lsm_at (y : FVec Ideal S5000x40 .f32) (σ : Fin 5000 → Fin 40 → EReal) (hy : ∀ p o, y (ix2 p o) = σ p o)
    (p : Fin 5000) (o : Fin 40) :
    k1_pay1 (F := Ideal) y (ix2 p o) = σ p o - Ideal.log (∑ o' : Fin 40, Ideal.exp (σ p o')) := by
  unfold k1_pay1
  dsimp only
  show y (ix2 p o) - broadcastTo S5000x40 _ _ (ix2 p o) = _
  refine congrArg₂ (· - ·) (hy p o) ?_
  refine (LibKeepdims.broadcastTo_a1_ab_apply _ _ p o).trans ?_
  show Ideal.log (shapeCast S5000x1 _ _ (ix2 p (0 : Fin 1))) = _
  refine congrArg Ideal.log ?_
  refine (LibKeepdims.shapeCast_a_a1_apply _ _ p 0).trans ?_
  refine (LibRowReduce.multiReduction_add_row _ _ _ _ _ p).trans ?_
  exact Finset.sum_congr rfl fun o' _ => congrArg Ideal.exp (hy p o')

set_option maxHeartbeats 1000000 in
/-- The body's stored value at entry (p, o) of a block is the network's tail on the block's rows. -/
theorem pay_apply (v0 v2 : Vec Ideal S5000x64 .f32) (v6 : Vec Ideal S64x64 .f32) (v9 : Vec Ideal S1x64 .f32)
    (v16 : Vec Ideal S64x64 .f32) (v19 : Vec Ideal S1x64 .f32) (v26 : Vec Ideal S64x40 .f32) (v29 : Vec Ideal S1x40 .f32)
    (p : Fin 5000) (o : Fin 40) :
    k1_pay1 (F := Ideal) (k1_pay2 v0 v2 v6 v9 v16 v19 v26 v29) (ix2 p o)
      = head (fun p j => v0 (ix2 p j)) (fun p j => v2 (ix2 p j)) (fun j o => v6 (ix2 j o)) (fun o => v9 (ix2 (0 : Fin 1) o))
          (fun j o => v16 (ix2 j o)) (fun o => v19 (ix2 (0 : Fin 1) o)) (fun j o => v26 (ix2 j o)) (fun o => v29 (ix2 (0 : Fin 1) o)) p o := by
  unfold head logSoftmax layer1
  refine lsm_at _ _ (fun p o => ?_) p o
  unfold k1_pay2
  dsimp only
  rw [shapeCast_self, shapeCast_self, shapeCast_self, shapeCast_self, shapeCast_self]
  exact shift_at _ _ (fun p o => logits_at _ _ _ _ (fun p j => reluLayer_at _ _ _ _
    (fun p j => reluLayer_at _ _ _ _ (fun p j => rfl) _ _ p j) _ _ p j) _ _ p o) _ _ _ _ _ p o

/-- The whole output array of the second region as ONE function of the arrays the region finds: row r of the output
    from row r of the hidden features `H` and of their neighbour sum `A`, the three weight matrices and bias rows. -/
def G1 (H A : S100000x64.Idx → EReal) (W2 : S64x64.Idx → EReal) (B2 : S1x64.Idx → EReal) (WF1 : S64x64.Idx → EReal)
    (BF1 : S1x64.Idx → EReal) (WF2 : S64x40.Idx → EReal) (BF2 : S1x40.Idx → EReal) : S100000x40.Idx → EReal :=
  fun i => head (fun p j => H (ix2 p j)) (fun p j => A (ix2 p j)) (fun j o => W2 (ix2 j o)) (fun o => B2 (ix2 (0 : Fin 1) o))
    (fun j o => WF1 (ix2 j o)) (fun o => BF1 (ix2 (0 : Fin 1) o)) (fun j o => WF2 (ix2 j o)) (fun o => BF2 (ix2 (0 : Fin 1) o)) (i 0) (i 1)

theorem hz : (![0, 0] : Fin 2 → Nat) = fun _ => 0 := funext fun a => by fin_cases a <;> rfl

/-- The index maps over the grid: at point t the two row-blocked inputs and the output sit at row block t, column
    block 0; the weight matrices and the bias rows are their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- Row p of point t's block of the hidden features is row 5000·t + p of the array. -/
theorem read0 (c : Dev nD) (t : Fin cfg1.N) (p : Fin 5000) (j : Fin 64) (r : Fin 100000) (hr : r.val = t.val * 5000 + p.val) :
    iblk1 V c 0 t (ix2 p j) = V c main_v15 (ix2 r j) := by
  obtain ⟨e0, e1, -⟩ := idx_facts t
  show V c main_v15 (((cfg1.win 0).blk t).view.emb (ix2 p j)) = V c main_v15 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * j.val = j.val; omega

/-- The same for their neighbour sum. -/
theorem read1 (c : Dev nD) (t : Fin cfg1.N) (p : Fin 5000) (j : Fin 64) (r : Fin 100000) (hr : r.val = t.val * 5000 + p.val) :
    iblk1 V c 1 t (ix2 p j) = V c main_v25 (ix2 r j) := by
  obtain ⟨-, -, e2, e3, -⟩ := idx_facts t
  show V c main_v25 (((cfg1.win 1).blk t).view.emb (ix2 p j)) = V c main_v25 (ix2 r j)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * j.val = j.val; omega

/-- Each weight matrix's block is the whole matrix, each bias row's block the whole row. -/
theorem read2 (c : Dev nD) (t : Fin cfg1.N) (j : Fin 64) (o : Fin 64) :
    iblk1 V c 2 t (ix2 j o) = V c main_arg4 (ix2 j o) := by
  obtain ⟨-, -, -, -, e4, e5, -⟩ := idx_facts t
  show V c main_arg4 (((cfg1.win 2).blk t).view.emb (ix2 j o)) = V c main_arg4 (ix2 j o)
  refine congrArg _ (funext fun a => Fin.ext ?_)
  match a with
  | ⟨0, _⟩ => show win1_2.index t (0 : Fin 2) * 64 + 1 * j.val = j.val; omega
  | ⟨1, _⟩ => show win1_2.index t (1 : Fin 2) * 64 + 1 * o.val = o.val; omega

theorem read3 (c : Dev nD) (t : Fin cfg1.N) (o : Fin 64) :
    iblk1 V c 3 t (ix2 (0 : Fin 1) o) = V c main_v26 (ix2 (0 : Fin 1) o) := by
  obtain ⟨-, -, -, -, -, -, e6, e7, -⟩ := idx_facts t
  show V c main_v26 (((cfg1.win 3).blk t).view.emb (ix2 (0 : Fin 1) o)) = V c main_v26 (ix2 (0 : Fin 1) o)
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 64 + 1 * o.val = o.val; omega

theorem read4 (c : Dev nD) (t : Fin cfg1.N) (j : Fin 64) (o : Fin 64) :
    iblk1 V c 4 t (ix2 j o) = V c main_arg6 (ix2 j o) := by
  obtain ⟨-, -, -, -, -, -, -, -, e8, e9, -⟩ := idx_facts t
  show V c main_arg6 (((cfg1.win 4).blk t).view.emb (ix2 j o)) = V c main_arg6 (ix2 j o)
  refine congrArg _ (funext fun a => Fin.ext ?_)
  match a with
  | ⟨0, _⟩ => show win1_4.index t (0 : Fin 2) * 64 + 1 * j.val = j.val; omega
  | ⟨1, _⟩ => show win1_4.index t (1 : Fin 2) * 64 + 1 * o.val = o.val; omega

theorem read5 (c : Dev nD) (t : Fin cfg1.N) (o : Fin 64) :
    iblk1 V c 5 t (ix2 (0 : Fin 1) o) = V c main_v27 (ix2 (0 : Fin 1) o) := by
  obtain ⟨-, -, -, -, -, -, -, -, -, -, e10, e11, -⟩ := idx_facts t
  show V c main_v27 (((cfg1.win 5).blk t).view.emb (ix2 (0 : Fin 1) o)) = V c main_v27 (ix2 (0 : Fin 1) o)
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 64 + 1 * o.val = o.val; omega

theorem read6 (c : Dev nD) (t : Fin cfg1.N) (j : Fin 64) (o : Fin 40) :
    iblk1 V c 6 t (ix2 j o) = V c main_arg8 (ix2 j o) := by
  obtain ⟨-, -, -, -, -, -, -, -, -, -, -, -, e12, e13, -⟩ := idx_facts t
  show V c main_arg8 (((cfg1.win 6).blk t).view.emb (ix2 j o)) = V c main_arg8 (ix2 j o)
  refine congrArg _ (funext fun a => Fin.ext ?_)
  match a with
  | ⟨0, _⟩ => show win1_6.index t (0 : Fin 2) * 64 + 1 * j.val = j.val; omega
  | ⟨1, _⟩ => show win1_6.index t (1 : Fin 2) * 40 + 1 * o.val = o.val; omega

theorem read7 (c : Dev nD) (t : Fin cfg1.N) (o : Fin 40) :
    iblk1 V c 7 t (ix2 (0 : Fin 1) o) = V c main_v28 (ix2 (0 : Fin 1) o) := by
  obtain ⟨-, -, -, -, -, -, -, -, -, -, -, -, -, -, e14, e15, -⟩ := idx_facts t
  show V c main_v28 (((cfg1.win 7).blk t).view.emb (ix2 (0 : Fin 1) o)) = V c main_v28 (ix2 (0 : Fin 1) o)
  refine congrArg _ (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 40 + 1 * o.val = o.val; omega

set_option maxHeartbeats 1000000 in
/-- What grid point t writes back is block t of `G1` of the arrays the region finds. -/
theorem flushed_eq (c : Dev nD) (t : Fin cfg1.N) :
    (dat1 V c).flushed 8 t = ((cfg1.win 8).blk t).view.read (Elt Ideal)
      (G1 (V c main_v15) (V c main_v25) (V c main_arg4) (V c main_v26) (V c main_arg6) (V c main_v27) (V c main_arg8) (V c main_v28)) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x64) hz, View.ld_unit_zero (S := S1x64) hz,
    View.ld_unit_zero (S := S64x40) hz, View.ld_unit_zero (S := S1x40) hz]
  obtain ⟨-, -, -, -, -, -, -, -, -, -, -, -, -, -, -, -, e16, e17⟩ := idx_facts t
  have ht : t.val < 20 := t.isLt
  funext j
  obtain ⟨p, o, rfl⟩ : ∃ (p : Fin 5000) (o : Fin 40), j = ix2 p o := ⟨j 0, j 1, eq_ix2 j⟩
  have hr : t.val * 5000 + p.val < 100000 := by have := p.isLt; omega
  have hemb : ((cfg1.win 8).blk t).view.emb (ix2 p o) = ix2 (⟨t.val * 5000 + p.val, hr⟩ : Fin 100000) o := by
    funext a; apply Fin.ext
    match a with
    | ⟨0, _⟩ => show win1_8.index t (0 : Fin 2) * 5000 + 1 * p.val = t.val * 5000 + p.val; omega
    | ⟨1, _⟩ => show win1_8.index t (1 : Fin 2) * 40 + 1 * o.val = o.val; omega
  show k1_pay1 (k1_pay2 (iblk1 V c 0 t) (iblk1 V c 1 t) (iblk1 V c 2 t) (iblk1 V c 3 t) (iblk1 V c 4 t) (iblk1 V c 5 t) (iblk1 V c 6 t) (iblk1 V c 7 t)) (ix2 p o)
    = G1 (V c main_v15) (V c main_v25) (V c main_arg4) (V c main_v26) (V c main_arg6) (V c main_v27) (V c main_arg8) (V c main_v28)
        (((cfg1.win 8).blk t).view.emb (ix2 p o))
  rw [hemb]
  refine (pay_apply _ _ _ _ _ _ _ _ p o).trans ?_
  show head _ _ _ _ _ _ _ _ p o = head _ _ _ _ _ _ _ _ (⟨t.val * 5000 + p.val, hr⟩ : Fin 100000) o
  rw [show (fun j o => iblk1 V c 2 t (ix2 j o)) = (fun j o => V c main_arg4 (ix2 j o)) from funext fun j => funext fun o => read2 V c t j o,
    show (fun o => iblk1 V c 3 t (ix2 (0 : Fin 1) o)) = (fun o => V c main_v26 (ix2 (0 : Fin 1) o)) from funext fun o => read3 V c t o,
    show (fun j o => iblk1 V c 4 t (ix2 j o)) = (fun j o => V c main_arg6 (ix2 j o)) from funext fun j => funext fun o => read4 V c t j o,
    show (fun o => iblk1 V c 5 t (ix2 (0 : Fin 1) o)) = (fun o => V c main_v27 (ix2 (0 : Fin 1) o)) from funext fun o => read5 V c t o,
    show (fun j o => iblk1 V c 6 t (ix2 j o)) = (fun j o => V c main_arg8 (ix2 j o)) from funext fun j => funext fun o => read6 V c t j o,
    show (fun o => iblk1 V c 7 t (ix2 (0 : Fin 1) o)) = (fun o => V c main_v28 (ix2 (0 : Fin 1) o)) from funext fun o => read7 V c t o]
  exact head_row_congr _ _ _ _ _ _ _ _ _ _ p _ (fun j => read0 V c t p j _ rfl) (fun j => read1 V c t p j _ rfl) o

/-- An index of the output array is in point t's block iff each coordinate is in the block's range. -/
theorem mem_blk (t : Fin cfg1.N) (i : S100000x40.Idx) :
    i ∈ ((cfg1.win 8).blk t).view.set ↔ ∀ a : Fin 2, win1_8.index t a * S5000x40.size a ≤ (i a).val ∧ (i a).val < win1_8.index t a * S5000x40.size a + S5000x40.size a := by
  show i ∈ ((View.whole main_v29).slice (win1_8.rect t)).set ↔ _
  rw [View.set_slice_whole, Rect.mem_set_unit]
  exact Iff.rfl

/-- Every row of the output array is in the block of the point that holds it: row r in block r / 5000. -/
theorem cover (i : S100000x40.Idx) :
    ∃ t : Fin cfg1.N, (cfg1.win 8).flush t = true ∧ i ∈ ((cfg1.win 8).blk t).view.set := by
  have hi0 : (i 0).val < 100000 := (i 0).isLt
  have hi1 : (i 1).val < 40 := (i 1).isLt
  have hq : (i 0).val / 5000 < 20 := by omega
  refine ⟨⟨(i 0).val / 5000, hq⟩, flush1_8 _, ?_⟩
  rw [mem_blk]
  obtain ⟨-, -, -, -, -, -, -, -, -, -, -, -, -, -, -, -, e16, e17⟩ := idx_facts ⟨(i 0).val / 5000, hq⟩
  have e16' : win1_8.index ⟨(i 0).val / 5000, hq⟩ (0 : Fin 2) = (i 0).val / 5000 := e16
  intro a
  match a with
  | ⟨0, _⟩ =>
    show win1_8.index ⟨(i 0).val / 5000, hq⟩ (0 : Fin 2) * 5000 ≤ (i 0).val ∧ (i 0).val < win1_8.index ⟨(i 0).val / 5000, hq⟩ (0 : Fin 2) * 5000 + 5000
    omega
  | ⟨1, _⟩ =>
    show win1_8.index ⟨(i 0).val / 5000, hq⟩ (1 : Fin 2) * 40 ≤ (i 1).val ∧ (i 1).val < win1_8.index ⟨(i 0).val / 5000, hq⟩ (1 : Fin 2) * 40 + 40
    omega

/-- The output array after the region: `G1` of the arrays the region finds. -/
theorem final (c : Dev nD) :
    (dat1 V c).arrAt 8 cfg1.N = G1 (V c main_v15) (V c main_v25) (V c main_arg4) (V c main_v26) (V c main_arg6) (V c main_v27) (V c main_arg8) (V c main_v28) :=
  (dat1 V c).arrAt_eq_of_cover 8 _ (fun t _ => flushed_eq V c t) cover

end Cert.KernelIdeal.Head

end
-- ==== Proof.Model.lean ====
/-
  What both programs compute, as ONE function of the ten argument arrays.

  hidden  = positive part of ((x + neighbour sum of x) · W1 + b1)                       an [100000, 64] matrix
  output  = row-wise log-softmax of
              positive part of (positive part of ((hidden + neighbour sum of hidden) · W2 + b2) · Wf1 + bf1) · Wf2 + bf2
  The arrays are read through their row and column coordinates; the biases are vectors read at their one coordinate.
-/
import proofs.«166975_j85272280694875_1_alg».proof.Proof.Spec
import proofs.«166975_j85272280694875_1_alg».proof.Proof.Agg
import Idealize.ShloMosaic.Lib.ValueIdx

noncomputable section

namespace Cert.Gin

open Cert.ReferenceIdeal Idealize.ShloMosaic Idealize.ShloMosaic.ValueIdx

/-- The node features after the first graph layer. -/
def hidden (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal)) :
    (⟨S100000x64, .f32⟩ : BufTy).Contents (Elt Ideal) :=
  fun i => layer1 (fun p j => x (ix2 p j)) (fun p j => agg128 (F := Ideal) x e (ix2 p j)) (fun j o => w1 (ix2 j o))
    (fun o => b1 (ix1 o)) (i 0) (i 1)

/-- The second graph layer, the two classifier layers and the log-softmax, from the hidden features `h` and their
    neighbour sum `a`. -/
def classify (h a : (⟨S100000x64, .f32⟩ : BufTy).Contents (Elt Ideal))
    (w2 : (⟨S64x64, .f32⟩ : BufTy).Contents (Elt Ideal)) (b2 : (⟨S64, .f32⟩ : BufTy).Contents (Elt Ideal))
    (wf1 : (⟨S64x64, .f32⟩ : BufTy).Contents (Elt Ideal)) (bf1 : (⟨S64, .f32⟩ : BufTy).Contents (Elt Ideal))
    (wf2 : (⟨S64x40, .f32⟩ : BufTy).Contents (Elt Ideal)) (bf2 : (⟨S40, .f32⟩ : BufTy).Contents (Elt Ideal)) :
    (⟨S100000x40, .f32⟩ : BufTy).Contents (Elt Ideal) :=
  fun i => head (fun p j => h (ix2 p j)) (fun p j => a (ix2 p j)) (fun j o => w2 (ix2 j o)) (fun o => b2 (ix1 o))
    (fun j o => wf1 (ix2 j o)) (fun o => bf1 (ix1 o)) (fun j o => wf2 (ix2 j o)) (fun o => bf2 (ix1 o)) (i 0) (i 1)

/-- The whole network: the class log-probabilities of every node. -/
def output (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (wf1 : (⟨S64x64, .f32⟩ : BufTy).Contents (Elt Ideal)) (bf1 : (⟨S64, .f32⟩ : BufTy).Contents (Elt Ideal))
    (wf2 : (⟨S64x40, .f32⟩ : BufTy).Contents (Elt Ideal)) (bf2 : (⟨S40, .f32⟩ : BufTy).Contents (Elt Ideal)) :
    (⟨S100000x40, .f32⟩ : BufTy).Contents (Elt Ideal) :=
  classify (hidden x e w1 b1) (agg64 (F := Ideal) (hidden x e w1 b1) e) w2 b2 wf1 bf1 wf2 bf2

end Cert.Gin

end
-- ==== Proof.KernelModel.lean ====
/-
  The two regions' whole-array functions, at the arrays the kernel program feeds them, are the network's two
  halves.  The only difference in spelling is the biases: the kernel program passes each bias as a one-row matrix
  (the vector cast to [1, n]), whose entry (0, o) is the vector's entry o.
-/
import proofs.«166975_j85272280694875_1_alg».proof.Proof.Layer1Value
import proofs.«166975_j85272280694875_1_alg».proof.Proof.HeadValue
import proofs.«166975_j85272280694875_1_alg».proof.Proof.Model
import Idealize.ShloMosaic.Lib.ValueLayout

noncomputable section

namespace Cert.KernelIdeal.KModel

open Cert.KernelIdeal Idealize.ShloMosaic Idealize.ShloMosaic.ValueIdx Cert.Gin

/-- The first region's function at (features, their neighbour sum, first weights, first bias as a row) is the hidden
    features. -/
theorem G0_eq_hidden (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (h : S64.ShapeCasts S1x64) :
    Layer1.G0 x (agg128 (F := Ideal) x e) w1 (shapeCast S1x64 b1 h) = Cert.Gin.hidden x e w1 b1 := by
  unfold Layer1.G0 Cert.Gin.hidden
  rw [show (fun o => shapeCast S1x64 b1 h (ix2 (0 : Fin 1) o)) = fun o => b1 (ix1 o) from
    funext fun o => shapeCast_a_1a_apply b1 h 0 o]

/-- The second region's function at (hidden features, their neighbour sum, the three weight matrices, the three
    biases as rows) is the network's tail. -/
theorem G1_eq_classify (hf a : (⟨S100000x64, .f32⟩ : BufTy).Contents (Elt Ideal))
    (w2 : (⟨S64x64, .f32⟩ : BufTy).Contents (Elt Ideal)) (b2 : (⟨S64, .f32⟩ : BufTy).Contents (Elt Ideal))
    (wf1 : (⟨S64x64, .f32⟩ : BufTy).Contents (Elt Ideal)) (bf1 : (⟨S64, .f32⟩ : BufTy).Contents (Elt Ideal))
    (wf2 : (⟨S64x40, .f32⟩ : BufTy).Contents (Elt Ideal)) (bf2 : (⟨S40, .f32⟩ : BufTy).Contents (Elt Ideal))
    (h64 : S64.ShapeCasts S1x64) (h40 : S40.ShapeCasts S1x40) :
    Head.G1 hf a w2 (shapeCast S1x64 b2 h64) wf1 (shapeCast S1x64 bf1 h64) wf2 (shapeCast S1x40 bf2 h40)
      = classify hf a w2 b2 wf1 bf1 wf2 bf2 := by
  unfold Head.G1 classify
  rw [show (fun o => shapeCast S1x64 b2 h64 (ix2 (0 : Fin 1) o)) = fun o => b2 (ix1 o) from
      funext fun o => shapeCast_a_1a_apply b2 h64 0 o,
    show (fun o => shapeCast S1x64 bf1 h64 (ix2 (0 : Fin 1) o)) = fun o => bf1 (ix1 o) from
      funext fun o => shapeCast_a_1a_apply bf1 h64 0 o,
    show (fun o => shapeCast S1x40 bf2 h40 (ix2 (0 : Fin 1) o)) = fun o => bf2 (ix1 o) from
      funext fun o => shapeCast_a_1a_apply bf2 h40 0 o]

end Cert.KernelIdeal.KModel

end
-- ==== Proof.KernelValue.lean ====
/-
  The idealized kernel program's result is the network's output.

  Walking the buffer contents back from the end of the run: the result array is the second region's whole-array
  function of what that region found; it found the first region's output (the hidden features) untouched, their
  neighbour sum (the host operations between the regions compute it from the hidden features and the two rows of the
  edge list the first stretch left), the weight matrices as launched and the biases as rows; the first region's
  output is its whole-array function of the features, their neighbour sum, the first weights and the first bias as
  a row.  Together: `Cert.Gin.output` of the ten argument arrays.
-/
import proofs.«166975_j85272280694875_1_alg».proof.Proof.KernelRun
import proofs.«166975_j85272280694875_1_alg».proof.Proof.KernelHost
import proofs.«166975_j85272280694875_1_alg».proof.Proof.KernelModel

noncomputable section

namespace Cert.KernelIdeal.KValue

open Cert.KernelIdeal Cert.KernelIdeal.Gen Idealize.ShloMosaic Idealize.ShloMosaic.TcCoe Idealize.ShloMosaic.StableHlo
open Idealize.SL.Sem Cert.Gin

variable (m : (ℓ : Loc nD τ sig) → Buf (Elt Ideal) ℓ) (ρ : Dev nD → PrngReg)

/-- The first region's output array after the region: the hidden features. -/
theorem hidden_eq (c : Dev nD) :
    W2 m ρ c (Proc.devRef .tc main_v15) = Cert.Gin.hidden (m ((c.tc : Thread nD τ).loc main_arg0)) (m ((c.tc : Thread nD τ).loc main_arg1)) (m ((c.tc : Thread nD τ).loc main_arg2)) (m ((c.tc : Thread nD τ).loc main_arg3)) :=
  calc W2 m ρ c (Proc.devRef .tc main_v15)
      = (dat0 (V1 m ρ) c).arrAt 4 cfg0.N := W2_arr m ρ c 4
    _ = Layer1.G0 (V1 m ρ c main_arg0) (V1 m ρ c main_v13) (V1 m ρ c main_arg2) (V1 m ρ c main_v14) := Layer1.final (V1 m ρ) c
    _ = Layer1.G0 (m ((c.tc : Thread nD τ).loc main_arg0)) (agg128 (F := Ideal) (m ((c.tc : Thread nD τ).loc main_arg0)) (m ((c.tc : Thread nD τ).loc main_arg1))) (m ((c.tc : Thread nD τ).loc main_arg2)) (shapeCast S1x64 (m ((c.tc : Thread nD τ).loc main_arg3)) shapeCasts_S64_S1x64) := by
          rw [show V1 m ρ c main_arg0 = (m ((c.tc : Thread nD τ).loc main_arg0)) from HostValue.pre_arg0 (W0 m ρ c),
            show V1 m ρ c main_v13 = agg128 (F := Ideal) (m ((c.tc : Thread nD τ).loc main_arg0)) (m ((c.tc : Thread nD τ).loc main_arg1)) from HostValue.pre_v13 (W0 m ρ c),
            show V1 m ρ c main_arg2 = (m ((c.tc : Thread nD τ).loc main_arg2)) from HostValue.pre_arg2 (W0 m ρ c),
            show V1 m ρ c main_v14 = shapeCast S1x64 (m ((c.tc : Thread nD τ).loc main_arg3)) shapeCasts_S64_S1x64 from HostValue.pre_v14 (W0 m ρ c)]
    _ = Cert.Gin.hidden (m ((c.tc : Thread nD τ).loc main_arg0)) (m ((c.tc : Thread nD τ).loc main_arg1)) (m ((c.tc : Thread nD τ).loc main_arg2)) (m ((c.tc : Thread nD τ).loc main_arg3)) := KModel.G0_eq_hidden _ _ _ _ _

/-- A buffer the first region does not write holds, after it, what the first host stretch left. -/
theorem W2_keep (c : Dev nD) (b : Ref sig .tc) (hb : ∀ w, Pipeline.arrRef spec0 w ≠ b) :
    W2 m ρ c (Proc.devRef .tc b) = after hostOps0 (W0 m ρ c) (Proc.devRef .tc b) :=
  W2_of_ne m ρ c b hb

/-- The result array at the end of the run is the network's output. -/
theorem result_eq (c : Dev nD) :
    W4 m ρ c (Proc.devRef .tc main_v29)
      = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  calc W4 m ρ c (Proc.devRef .tc main_v29)
      = (dat1 (V3 m ρ) c).arrAt 8 cfg1.N := W4_arr m ρ c 8
    _ = Head.G1 (V3 m ρ c main_v15) (V3 m ρ c main_v25) (V3 m ρ c main_arg4) (V3 m ρ c main_v26) (V3 m ρ c main_arg6)
          (V3 m ρ c main_v27) (V3 m ρ c main_arg8) (V3 m ρ c main_v28) := Head.final (V3 m ρ) c
    _ = Head.G1 (Cert.Gin.hidden (m ((c.tc : Thread nD τ).loc main_arg0)) (m ((c.tc : Thread nD τ).loc main_arg1)) (m ((c.tc : Thread nD τ).loc main_arg2)) (m ((c.tc : Thread nD τ).loc main_arg3)))
          (agg64 (F := Ideal) (Cert.Gin.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)))
          (m ((c.tc : Thread nD τ).loc main_arg4)) (shapeCast S1x64 (m ((c.tc : Thread nD τ).loc main_arg5)) shapeCasts_S64_S1x64) (m ((c.tc : Thread nD τ).loc main_arg6)) (shapeCast S1x64 (m ((c.tc : Thread nD τ).loc main_arg7)) shapeCasts_S64_S1x64)
          (m ((c.tc : Thread nD τ).loc main_arg8)) (shapeCast S1x40 (m ((c.tc : Thread nD τ).loc main_arg9)) shapeCasts_S40_S1x40) := by
          rw [show V3 m ρ c main_v15 = Cert.Gin.hidden (m ((c.tc : Thread nD τ).loc main_arg0)) (m ((c.tc : Thread nD τ).loc main_arg1)) (m ((c.tc : Thread nD τ).loc main_arg2)) (m ((c.tc : Thread nD τ).loc main_arg3)) from
              (HostValue.mid_v15 (W2 m ρ c)).trans (hidden_eq m ρ c),
            show V3 m ρ c main_v25 = agg64 (F := Ideal) (Cert.Gin.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) from
              (HostValue.mid_v25 (W2 m ρ c)).trans (by
                rw [hidden_eq m ρ c, W2_keep m ρ c main_v1 (by decide), W2_keep m ρ c main_v3 (by decide),
                  HostValue.pre_v1 (W0 m ρ c), HostValue.pre_v3 (W0 m ρ c)]
                rfl),
            show V3 m ρ c main_arg4 = (m ((c.tc : Thread nD τ).loc main_arg4)) from
              (HostValue.mid_arg4 (W2 m ρ c)).trans ((W2_keep m ρ c main_arg4 (by decide)).trans (HostValue.pre_arg4 (W0 m ρ c))),
            show V3 m ρ c main_v26 = shapeCast S1x64 (m ((c.tc : Thread nD τ).loc main_arg5)) shapeCasts_S64_S1x64 from
              (HostValue.mid_v26 (W2 m ρ c)).trans (by
                rw [W2_keep m ρ c main_arg5 (by decide), HostValue.pre_arg5 (W0 m ρ c)]),
            show V3 m ρ c main_arg6 = (m ((c.tc : Thread nD τ).loc main_arg6)) from
              (HostValue.mid_arg6 (W2 m ρ c)).trans ((W2_keep m ρ c main_arg6 (by decide)).trans (HostValue.pre_arg6 (W0 m ρ c))),
            show V3 m ρ c main_v27 = shapeCast S1x64 (m ((c.tc : Thread nD τ).loc main_arg7)) shapeCasts_S64_S1x64 from
              (HostValue.mid_v27 (W2 m ρ c)).trans (by
                rw [W2_keep m ρ c main_arg7 (by decide), HostValue.pre_arg7 (W0 m ρ c)]),
            show V3 m ρ c main_arg8 = (m ((c.tc : Thread nD τ).loc main_arg8)) from
              (HostValue.mid_arg8 (W2 m ρ c)).trans ((W2_keep m ρ c main_arg8 (by decide)).trans (HostValue.pre_arg8 (W0 m ρ c))),
            show V3 m ρ c main_v28 = shapeCast S1x40 (m ((c.tc : Thread nD τ).loc main_arg9)) shapeCasts_S40_S1x40 from
              (HostValue.mid_v28 (W2 m ρ c)).trans (by
                rw [W2_keep m ρ c main_arg9 (by decide), HostValue.pre_arg9 (W0 m ρ c)])]
    _ = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := KModel.G1_eq_classify _ _ _ _ _ _ _ _ _ _

/-- Every weakly fair execution of the idealized kernel program terminates without a fault, with the result array
    at the network's output of the argument arrays and every argument array as launched. -/
theorem run : θ_run (defs (F := Ideal)) (onTc (τ := τ) (main (F := Ideal))) ⟨m, fun _ => 0, ρ⟩ fun r => ∀ c : Dev nD,
      r.2.mem ((c.tc : Thread nD τ).loc main_v29) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (result_eq m ρ c), (h c).2⟩) (RunValue.run_result m ρ)

end Cert.KernelIdeal.KValue

end
-- ==== Proof.RefRun.lean ====
/-
  The reference program's run, cut into four consecutive lines of host operations.

  The program is a straight line of 72 operations.  It is read here as four literal lists run one after the other:
  the hidden features (operations 1–25), their neighbour sum (26–38), the logits (39–57) and the row-wise
  log-softmax (58–72).  Running a concatenation is running its parts in order, so every buffer ends at the fourth
  list's result over the third's over the second's over the first's over the launch contents.  Each list is later
  read over an arbitrary valuation, which keeps every term the size of one list.
-/
import proofs.«166975_j85272280694875_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–25: the two rows of the edge list, the first neighbour sum, the first dense layer and its positive part (the hidden features). -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v18) (TRef.of (T := ⟨S100000x64, .f32⟩) main_call0_v0) (TRef.of (T := ⟨S100000x64, .f32⟩) main_v19) maximumf ]

/-- Operations 26–38: the neighbour sum of the hidden features. -/
abbrev ops2 : List (HloOp τ sig (Elt F)) :=
  [ nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_v1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_v1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v19 main_v25 main_v26 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_3 (constant S_ .f32 0x00000000#32),
    unary main_cst_3 main_v27 (broadcastInDim S100000x64 ![] bcast_S_S100000x64 : (⟨S_, .f32⟩ : BufTy).Contents (Elt F) → (⟨S100000x64, .f32⟩ : BufTy).Contents (Elt F)),
    unary main_v3 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Operations 39–57: the second graph layer and the two classifier layers (the logits). -/
abbrev ops3 : List (HloOp τ sig (Elt F)) :=
  [ binary main_v19 main_v29 main_v30 (addf : (⟨S100000x64, .f32⟩ : BufTy).Contents (Elt F) → (⟨S100000x64, .f32⟩ : BufTy).Contents (Elt F) → (⟨S100000x64, .f32⟩ : BufTy).Contents (Elt F)),
    binary main_v30 main_arg4 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf,
    binary main_v35 main_arg6 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v39) (TRef.of (T := ⟨S100000x64, .f32⟩) main_call2_v0) (TRef.of (T := ⟨S100000x64, .f32⟩) main_v40) maximumf,
    binary main_v40 main_arg8 main_v41 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v42 (broadcastInDim S1x40 ![1] bcast_S40_S1x40_1 : (⟨S40, .f32⟩ : BufTy).Contents (Elt F) → (⟨S1x40, .f32⟩ : BufTy).Contents (Elt F)),
    unary main_v42 main_v43 (broadcastInDim S100000x40 ![0, 1] bcast_S1x40_S100000x40_0_1 : (⟨S1x40, .f32⟩ : BufTy).Contents (Elt F) → (⟨S100000x40, .f32⟩ : BufTy).Contents (Elt F)),
    binary main_v41 main_v43 main_v44 (addf : (⟨S100000x40, .f32⟩ : BufTy).Contents (Elt F) → (⟨S100000x40, .f32⟩ : BufTy).Contents (Elt F) → (⟨S100000x40, .f32⟩ : BufTy).Contents (Elt F)) ]

/-- Operations 58–72: the row-wise log-softmax of the logits. -/
abbrev ops4 : List (HloOp τ sig (Elt F)) :=
  [ TRef.nullary (TRef.of (T := ⟨S_, .f32⟩) main_call3_cst) (constant S_ .f32 0xFF800000#32),
    TRef.binary (TRef.of (T := ⟨S100000x40, .f32⟩) main_v44) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v44) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v45) subf ]

/-- The program's 72 operations, in order. -/
abbrev ops : List (HloOp τ sig (Elt F)) := ops1 ++ ops2 ++ ops3 ++ ops4

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

set_option maxRecDepth 8192 in
theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3_fresh : ∀ op ∈ (ops3 : List (HloOp τ sig (Elt F))), op.fresh = ∅ := by
  intro _ h; (repeat (cases h with | head => rfl | tail _ h => ?_)); exact nomatch h

set_option maxRecDepth 8192 in
theorem ops4_fresh : ∀ op ∈ (ops4 : List (HloOp τ sig (Elt F))), op.fresh = ∅ := by
  intro _ h; (repeat (cases h with | head => rfl | tail _ h => ?_)); exact nomatch h

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · exact List.forall_iff_forall_mem.mp ops1_sub op h
        · exact List.forall_iff_forall_mem.mp ops2_sub op h
      · exact List.forall_iff_forall_mem.mp ops3_sub op h
    · exact List.forall_iff_forall_mem.mp ops4_sub op h

/-- Every operation determines its results. -/
theorem ops_fresh : ∀ op ∈ (ops : List (HloOp τ sig (Elt F))), op.fresh = ∅ := fun op h => by
  rcases List.mem_append.mp h with h | h
  · rcases List.mem_append.mp h with h | h
    · rcases List.mem_append.mp h with h | h
      · exact ops1_fresh op h
      · exact ops2_fresh op h
    · exact ops3_fresh op h
  · exact ops4_fresh op h

/-- Running two lines one after the other: the second's result over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The whole line's result is the four parts' results, in order. -/
theorem after_ops (V : Valuation τ sig (Elt F)) :
    after ops V = after ops4 (after ops3 (after ops2 (after ops1 V))) := by
  rw [show (ops : List (HloOp τ sig (Elt F))) = ops1 ++ ops2 ++ ops3 ++ ops4 from rfl, after_append, after_append, after_append]

/-- On every device, for any float values, from any memory with zero counters: every weakly fair execution of the
    program terminates with each buffer at the four lists' results, in order, over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops4 (after ops3 (after ops2 (after ops1 (launchContents m d)))) (Proc.devRef .tc b) :=
  (θ_run defs _ _).mono (fun _ h d b => (h d b).trans (congrFun (after_ops (launchContents m d)) (Proc.devRef .tc b)))
    (run_seq scopedRefs_eq scopedSems_eq defs main (fun _ => ops) main_eq (fun _ => ops_sub) m ρ (fun _ => ops_fresh))

end Cert.ReferenceIdeal.RefRun

end
-- ==== Proof.RefTerms.lean ====
/-
  The arrays the reference program writes, as small named terms of the arrays they read.

  Each definition is the composition of host operations one stretch of the program applies, spelt with the same
  operations and the same shape records as the program, for any float values.  Naming the stretches keeps every later
  statement the size of one stretch: a dense step with its positive part, the logits, a row's largest entry, the
  shifted rows, the row-wise log-softmax.
-/
import proofs.«166975_j85272280694875_1_alg».proof.Proof.Gen.ReferenceIdeal
import proofs.«166975_j85272280694875_1_alg».proof.Proof.Agg

noncomputable section

namespace Cert.ReferenceIdeal.RefTerms

open Cert.ReferenceIdeal Cert.ReferenceIdeal.Gen Idealize.ShloMosaic

variable {F : FTy → Type} [FloatOps F]

/-- A 64-entry bias, repeated down the 100000 rows. -/
def bias64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- A 40-entry bias, repeated down the 100000 rows. -/
def bias40 (b : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 b)

/-- The [100000, 64] matrix of the zero word. -/
def zeros64 : (⟨S100000x64, .f32⟩ : BufTy).Contents (Elt F) :=
  broadcastInDim S100000x64 ![] bcast_S_S100000x64 (constant S_ .f32 0x00000000#32)

/-- The hidden features: the positive part of ((x + neighbour sum of x) · w1 + b1). -/
def hiddenTerm (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F)) : (⟨S100000x64, .f32⟩ : BufTy).Contents (Elt F) :=
  maximumf (addf (Host.dotGeneral dot_S100000x128_S128x64_S100000x64_1_0_0_1_n_n none (addf x (Cert.Gin.agg128 x e)) w1) (bias64 b1)) zeros64

/-- One 64-to-64 dense step with its positive part. -/
def reluDense64 (x : (⟨S100000x64, .f32⟩ : BufTy).Contents (Elt F)) (w : (⟨S64x64, .f32⟩ : BufTy).Contents (Elt F)) (b : (⟨S64, .f32⟩ : BufTy).Contents (Elt F)) : (⟨S100000x64, .f32⟩ : BufTy).Contents (Elt F) :=
  maximumf (addf (Host.dotGeneral dot_S100000x64_S64x64_S100000x64_1_0_0_1_n_n none x w) (bias64 b)) zeros64

/-- The logits, from the hidden features `h` and their neighbour sum `a`. -/
def logitsTerm (h a : (⟨S100000x64, .f32⟩ : BufTy).Contents (Elt F)) (w2 : (⟨S64x64, .f32⟩ : BufTy).Contents (Elt F)) (b2 : (⟨S64, .f32⟩ : BufTy).Contents (Elt F)) (wf1 : (⟨S64x64, .f32⟩ : BufTy).Contents (Elt F)) (bf1 : (⟨S64, .f32⟩ : BufTy).Contents (Elt F))
    (wf2 : (⟨S64x40, .f32⟩ : BufTy).Contents (Elt F)) (bf2 : (⟨S40, .f32⟩ : BufTy).Contents (Elt F)) : (⟨S100000x40, .f32⟩ : BufTy).Contents (Elt F) :=
  addf (Host.dotGeneral dot_S100000x64_S64x40_S100000x40_1_0_0_1_n_n none (reluDense64 (reluDense64 (addf h a) w2 b2) wf1 bf1) wf2) (bias40 bf2)

/-- Each row's largest entry: the host's maximum-reduce from the minus-infinity word, and once more against that word. -/
def rowMaxTerm (y : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf y (constant S_ .f32 0xFF800000#32) reducesTo_S100000x40_S100000_d1 h_S_)

/-- A vector of 100000 entries as a one-column matrix. -/
def col (v : (⟨S100000, .f32⟩ : BufTy).Contents (Elt F)) : (⟨S100000x1, .f32⟩ : BufTy).Contents (Elt F) :=
  broadcastInDim S100000x1 ![0] bcast_S100000_S100000x1_0 v

/-- A one-column matrix repeated across 40 columns. -/
def wide (c : (⟨S100000x1, .f32⟩ : BufTy).Contents (Elt F)) : (⟨S100000x40, .f32⟩ : BufTy).Contents (Elt F) :=
  broadcastInDim S100000x40 ![0, 1] bcast_S100000x1_S100000x40_0_1 c

/-- Every row shifted down by its largest entry. -/
def shiftTerm (y : (⟨S100000x40, .f32⟩ : BufTy).Contents (Elt F)) : (⟨S100000x40, .f32⟩ : BufTy).Contents (Elt F) :=
  subf y (wide (col (rowMaxTerm y)))

/-- The row-wise log-softmax: the shifted rows minus the logarithm of each row's sum of exponentials. -/
def lsmTerm (y : (⟨S100000x40, .f32⟩ : BufTy).Contents (Elt F)) : (⟨S100000x40, .f32⟩ : BufTy).Contents (Elt F) :=
  subf (shiftTerm y)
    (wide (Host.log (col (Host.reduceAdd (Host.exp (shiftTerm y)) (constant S_ .f32 0x00000000#32) reducesTo_S100000x40_S100000_d1 h_S_))))

end Cert.ReferenceIdeal.RefTerms

end
-- ==== Proof.RefLists.lean ====
/-
  What each of the four lists of host operations leaves in the buffers the later lists read.

  Every statement is over an arbitrary valuation of the buffers: the list's result at one buffer is the named term of
  the valuation at the buffers the list reads, and a buffer the list does not write keeps its contents.  Nothing here
  depends on what the valuation holds, so each statement is the size of one list.
-/
import proofs.«166975_j85272280694875_1_alg».proof.Proof.RefRun
import proofs.«166975_j85272280694875_1_alg».proof.Proof.RefTerms

set_option maxHeartbeats 400000

noncomputable section

namespace Cert.ReferenceIdeal.RefLists

open Cert.ReferenceIdeal Cert.ReferenceIdeal.Gen Cert.ReferenceIdeal.RefRun Cert.ReferenceIdeal.RefTerms Idealize.ShloMosaic Idealize.ShloMosaic.TcCoe Idealize.SL.Sem Idealize.ShloMosaic.StableHlo

variable {F : FTy → Type} [FloatOps F]

/-- Contents moved to a typed reference's buffer type and back are unchanged: the move is a cast along the equation
    between the two types, and the way back is the cast along the same equation reversed. -/
theorem ofBuf_toBuf {Val : EltTy → Type} {T : BufTy} (x : TRef sig T) (v : T.Contents Val) : x.ofBuf (x.toBuf v) = v := by
  obtain ⟨r, rfl, _, _⟩ := x
  rfl

/-! ## The first list: the hidden features and the two rows of the edge list -/

/-- The first list leaves the hidden features of its four arrays. -/
theorem ops1_v19 (U : Valuation τ sig (Elt F)) :
    after ops1 U (Proc.devRef .tc main_v19) = hiddenTerm (U (Proc.devRef .tc main_arg0)) (U (Proc.devRef .tc main_arg1)) (U (Proc.devRef .tc main_arg2)) (U (Proc.devRef .tc main_arg3)) := by
  after_results_simp
  rfl

/-- The first list leaves the edges' sources. -/
theorem ops1_v1 (U : Valuation τ sig (Elt F)) :
    after ops1 U (Proc.devRef .tc main_v1) = Cert.Gin.srcRow (U (Proc.devRef .tc main_arg1)) := by
  after_results_simp
  rfl

/-- The first list leaves the edges' destinations. -/
theorem ops1_v3 (U : Valuation τ sig (Elt F)) :
    after ops1 U (Proc.devRef .tc main_v3) = Cert.Gin.dstRow (U (Proc.devRef .tc main_arg1)) := by
  after_results_simp
  rfl

/-- The first list writes no argument. -/
theorem ops1_arg0 (U : Valuation τ sig (Elt F)) :
    after ops1 U (Proc.devRef .tc main_arg0) = U (Proc.devRef .tc main_arg0) := by
  after_results_simp

theorem ops1_arg1 (U : Valuation τ sig (Elt F)) :
    after ops1 U (Proc.devRef .tc main_arg1) = U (Proc.devRef .tc main_arg1) := by
  after_results_simp

theorem ops1_arg2 (U : Valuation τ sig (Elt F)) :
    after ops1 U (Proc.devRef .tc main_arg2) = U (Proc.devRef .tc main_arg2) := by
  after_results_simp

theorem ops1_arg3 (U : Valuation τ sig (Elt F)) :
    after ops1 U (Proc.devRef .tc main_arg3) = U (Proc.devRef .tc main_arg3) := by
  after_results_simp

theorem ops1_arg4 (U : Valuation τ sig (Elt F)) :
    after ops1 U (Proc.devRef .tc main_arg4) = U (Proc.devRef .tc main_arg4) := by
  after_results_simp

theorem ops1_arg5 (U : Valuation τ sig (Elt F)) :
    after ops1 U (Proc.devRef .tc main_arg5) = U (Proc.devRef .tc main_arg5) := by
  after_results_simp

theorem ops1_arg6 (U : Valuation τ sig (Elt F)) :
    after ops1 U (Proc.devRef .tc main_arg6) = U (Proc.devRef .tc main_arg6) := by
  after_results_simp

theorem ops1_arg7 (U : Valuation τ sig (Elt F)) :
    after ops1 U (Proc.devRef .tc main_arg7) = U (Proc.devRef .tc main_arg7) := by
  after_results_simp

theorem ops1_arg8 (U : Valuation τ sig (Elt F)) :
    after ops1 U (Proc.devRef .tc main_arg8) = U (Proc.devRef .tc main_arg8) := by
  after_results_simp

theorem ops1_arg9 (U : Valuation τ sig (Elt F)) :
    after ops1 U (Proc.devRef .tc main_arg9) = U (Proc.devRef .tc main_arg9) := by
  after_results_simp

/-! ## The second list: the neighbour sum of the hidden features -/

/-- The second list leaves the neighbour sum of the hidden features, from the two rows of the edge list. -/
theorem ops2_v29 (U : Valuation τ sig (Elt F)) :
    after ops2 U (Proc.devRef .tc main_v29) = Cert.Gin.aggRows64 (U (Proc.devRef .tc main_v19)) (U (Proc.devRef .tc main_v1)) (U (Proc.devRef .tc main_v3)) := by
  after_results_simp
  rfl

theorem ops2_v19 (U : Valuation τ sig (Elt F)) :
    after ops2 U (Proc.devRef .tc main_v19) = U (Proc.devRef .tc main_v19) := by
  after_results_simp

theorem ops2_arg0 (U : Valuation τ sig (Elt F)) :
    after ops2 U (Proc.devRef .tc main_arg0) = U (Proc.devRef .tc main_arg0) := by
  after_results_simp

theorem ops2_arg1 (U : Valuation τ sig (Elt F)) :
    after ops2 U (Proc.devRef .tc main_arg1) = U (Proc.devRef .tc main_arg1) := by
  after_results_simp

theorem ops2_arg2 (U : Valuation τ sig (Elt F)) :
    after ops2 U (Proc.devRef .tc main_arg2) = U (Proc.devRef .tc main_arg2) := by
  after_results_simp

theorem ops2_arg3 (U : Valuation τ sig (Elt F)) :
    after ops2 U (Proc.devRef .tc main_arg3) = U (Proc.devRef .tc main_arg3) := by
  after_results_simp

theorem ops2_arg4 (U : Valuation τ sig (Elt F)) :
    after ops2 U (Proc.devRef .tc main_arg4) = U (Proc.devRef .tc main_arg4) := by
  after_results_simp

theorem ops2_arg5 (U : Valuation τ sig (Elt F)) :
    after ops2 U (Proc.devRef .tc main_arg5) = U (Proc.devRef .tc main_arg5) := by
  after_results_simp

theorem ops2_arg6 (U : Valuation τ sig (Elt F)) :
    after ops2 U (Proc.devRef .tc main_arg6) = U (Proc.devRef .tc main_arg6) := by
  after_results_simp

theorem ops2_arg7 (U : Valuation τ sig (Elt F)) :
    after ops2 U (Proc.devRef .tc main_arg7) = U (Proc.devRef .tc main_arg7) := by
  after_results_simp

theorem ops2_arg8 (U : Valuation τ sig (Elt F)) :
    after ops2 U (Proc.devRef .tc main_arg8) = U (Proc.devRef .tc main_arg8) := by
  after_results_simp

theorem ops2_arg9 (U : Valuation τ sig (Elt F)) :
    after ops2 U (Proc.devRef .tc main_arg9) = U (Proc.devRef .tc main_arg9) := by
  after_results_simp

/-! ## The third list: the logits -/

/-- The third list leaves the logits, from the hidden features, their neighbour sum and the six weight arrays. -/
theorem ops3_v44 (U : Valuation τ sig (Elt F)) :
    after ops3 U (Proc.devRef .tc main_v44) = logitsTerm (U (Proc.devRef .tc main_v19)) (U (Proc.devRef .tc main_v29)) (U (Proc.devRef .tc main_arg4)) (U (Proc.devRef .tc main_arg5)) (U (Proc.devRef .tc main_arg6)) (U (Proc.devRef .tc main_arg7)) (U (Proc.devRef .tc main_arg8)) (U (Proc.devRef .tc main_arg9)) := by
  after_results_simp
  rfl

theorem ops3_arg0 (U : Valuation τ sig (Elt F)) :
    after ops3 U (Proc.devRef .tc main_arg0) = U (Proc.devRef .tc main_arg0) := by
  after_results_simp

theorem ops3_arg1 (U : Valuation τ sig (Elt F)) :
    after ops3 U (Proc.devRef .tc main_arg1) = U (Proc.devRef .tc main_arg1) := by
  after_results_simp

theorem ops3_arg2 (U : Valuation τ sig (Elt F)) :
    after ops3 U (Proc.devRef .tc main_arg2) = U (Proc.devRef .tc main_arg2) := by
  after_results_simp

theorem ops3_arg3 (U : Valuation τ sig (Elt F)) :
    after ops3 U (Proc.devRef .tc main_arg3) = U (Proc.devRef .tc main_arg3) := by
  after_results_simp

theorem ops3_arg4 (U : Valuation τ sig (Elt F)) :
    after ops3 U (Proc.devRef .tc main_arg4) = U (Proc.devRef .tc main_arg4) := by
  after_results_simp

theorem ops3_arg5 (U : Valuation τ sig (Elt F)) :
    after ops3 U (Proc.devRef .tc main_arg5) = U (Proc.devRef .tc main_arg5) := by
  after_results_simp

theorem ops3_arg6 (U : Valuation τ sig (Elt F)) :
    after ops3 U (Proc.devRef .tc main_arg6) = U (Proc.devRef .tc main_arg6) := by
  after_results_simp

theorem ops3_arg7 (U : Valuation τ sig (Elt F)) :
    after ops3 U (Proc.devRef .tc main_arg7) = U (Proc.devRef .tc main_arg7) := by
  after_results_simp

theorem ops3_arg8 (U : Valuation τ sig (Elt F)) :
    after ops3 U (Proc.devRef .tc main_arg8) = U (Proc.devRef .tc main_arg8) := by
  after_results_simp

theorem ops3_arg9 (U : Valuation τ sig (Elt F)) :
    after ops3 U (Proc.devRef .tc main_arg9) = U (Proc.devRef .tc main_arg9) := by
  after_results_simp

/-! ## The fourth list: the row-wise log-softmax -/

/-- The fourth list leaves the row-wise log-softmax of the logits. -/
theorem ops4_v45 (U : Valuation τ sig (Elt F)) :
    after ops4 U (Proc.devRef .tc main_v45) = lsmTerm (U (Proc.devRef .tc main_v44)) := by
  after_results_simp
  simp only [ofBuf_toBuf]
  rfl

theorem ops4_arg0 (U : Valuation τ sig (Elt F)) :
    after ops4 U (Proc.devRef .tc main_arg0) = U (Proc.devRef .tc main_arg0) := by
  after_results_simp

theorem ops4_arg1 (U : Valuation τ sig (Elt F)) :
    after ops4 U (Proc.devRef .tc main_arg1) = U (Proc.devRef .tc main_arg1) := by
  after_results_simp

theorem ops4_arg2 (U : Valuation τ sig (Elt F)) :
    after ops4 U (Proc.devRef .tc main_arg2) = U (Proc.devRef .tc main_arg2) := by
  after_results_simp

theorem ops4_arg3 (U : Valuation τ sig (Elt F)) :
    after ops4 U (Proc.devRef .tc main_arg3) = U (Proc.devRef .tc main_arg3) := by
  after_results_simp

theorem ops4_arg4 (U : Valuation τ sig (Elt F)) :
    after ops4 U (Proc.devRef .tc main_arg4) = U (Proc.devRef .tc main_arg4) := by
  after_results_simp

theorem ops4_arg5 (U : Valuation τ sig (Elt F)) :
    after ops4 U (Proc.devRef .tc main_arg5) = U (Proc.devRef .tc main_arg5) := by
  after_results_simp

theorem ops4_arg6 (U : Valuation τ sig (Elt F)) :
    after ops4 U (Proc.devRef .tc main_arg6) = U (Proc.devRef .tc main_arg6) := by
  after_results_simp

theorem ops4_arg7 (U : Valuation τ sig (Elt F)) :
    after ops4 U (Proc.devRef .tc main_arg7) = U (Proc.devRef .tc main_arg7) := by
  after_results_simp

theorem ops4_arg8 (U : Valuation τ sig (Elt F)) :
    after ops4 U (Proc.devRef .tc main_arg8) = U (Proc.devRef .tc main_arg8) := by
  after_results_simp

theorem ops4_arg9 (U : Valuation τ sig (Elt F)) :
    after ops4 U (Proc.devRef .tc main_arg9) = U (Proc.devRef .tc main_arg9) := by
  after_results_simp

end Cert.ReferenceIdeal.RefLists

end
-- ==== Proof.RefMath.lean ====
/-
  The named array terms of the reference program, read entry by entry on the extended reals.

  At the ideal instance every host operation is its textbook one: a product's entry (p, o) is the sum over j of
  l(p, j) · r(j, o), a repeated bias at (p, o) is the bias at o, the positive part is the larger of the entry and the
  zero word, a row reduction is the row's sum or the fold of `max` over the row.  Entry by entry, the hidden-features
  term is the first graph layer of the model, and the log-softmax of the logits term is the model's classifier.  The
  reference takes the larger of the minus-infinity word and a fold of `max` that starts from that word: the fold
  already dominates its start value, so this changes nothing.
-/
import proofs.«166975_j85272280694875_1_alg».proof.Proof.RefTerms
import proofs.«166975_j85272280694875_1_alg».proof.Proof.Model
import proofs.«166975_j85272280694875_1_alg».proof.Proof.LibPlainDot
import proofs.«166975_j85272280694875_1_alg».proof.Proof.LibRowReduce
import Idealize.ShloMosaic.Lib.Pipeline.Value
import Idealize.ShloMosaic.Lib.ValueIdx
import Idealize.ShloMosaic.PureOps.Ideal.Laws

set_option maxHeartbeats 400000

noncomputable section

namespace Cert.ReferenceIdeal.RefMath

open Cert.ReferenceIdeal Cert.ReferenceIdeal.Gen Cert.ReferenceIdeal.RefTerms Idealize.ShloMosaic Idealize.ShloMosaic.ValueIdx

/-! ## The pieces, at one entry -/

/-- The repeated 64-entry bias at (p, o) is the bias at o. -/
theorem bias64_apply (b : (⟨S64, .f32⟩ : BufTy).Contents (Elt Ideal)) (p : Fin 100000) (o : Fin 64) : bias64 b (ix2 p o) = b (ix1 o) := by
  unfold bias64
  refine (broadcastInDim_apply _ bcast_S1x64_S100000x64_0_1 _ (ix2 p o) (ix2 (0 : Fin 1) o) (fun a => match a with
    | ⟨0, _⟩ => by show (0 : ℕ) = if (1 : Nat) = 1 then 0 else p.val; rw [if_pos rfl]
    | ⟨1, _⟩ => by show o.val = if (64 : Nat) = 1 then 0 else o.val; rw [if_neg (by decide)])).trans ?_
  exact broadcastInDim_apply _ bcast_S64_S1x64_1 b (ix2 (0 : Fin 1) o) (ix1 o) (fun a => match a with
    | ⟨0, _⟩ => by show o.val = if (64 : Nat) = 1 then 0 else o.val; rw [if_neg (by decide)])

/-- The repeated 40-entry bias at (p, o) is the bias at o. -/
theorem bias40_apply (b : (⟨S40, .f32⟩ : BufTy).Contents (Elt Ideal)) (p : Fin 100000) (o : Fin 40) : bias40 b (ix2 p o) = b (ix1 o) := by
  unfold bias40
  refine (broadcastInDim_apply _ bcast_S1x40_S100000x40_0_1 _ (ix2 p o) (ix2 (0 : Fin 1) o) (fun a => match a with
    | ⟨0, _⟩ => by show (0 : ℕ) = if (1 : Nat) = 1 then 0 else p.val; rw [if_pos rfl]
    | ⟨1, _⟩ => by show o.val = if (40 : Nat) = 1 then 0 else o.val; rw [if_neg (by decide)])).trans ?_
  exact broadcastInDim_apply _ bcast_S40_S1x40_1 b (ix2 (0 : Fin 1) o) (ix1 o) (fun a => match a with
    | ⟨0, _⟩ => by show o.val = if (40 : Nat) = 1 then 0 else o.val; rw [if_neg (by decide)])

/-- Every entry of the zero matrix is the zero word. -/
theorem zeros64_apply (i : S100000x64.Idx) : zeros64 (F := Ideal) i = Cert.Gin.zeroWord := by
  unfold zeros64
  exact broadcastInDim_apply _ bcast_S_S100000x64 _ i ix0 (fun a => a.elim0)

/-- The host's product with the record of [100000, 128] against [128, 64], at one entry. -/
theorem dot128_apply (l : (⟨S100000x128, .f32⟩ : BufTy).Contents (Elt Ideal)) (r : (⟨S128x64, .f32⟩ : BufTy).Contents (Elt Ideal)) (p : Fin 100000) (o : Fin 64) :
    Host.dotGeneral (F := Ideal) (φ₁ := .f32) (φ₂ := .f32) dot_S100000x128_S128x64_S100000x64_1_0_0_1_n_n none l r (ix2 p o) = ∑ j : Fin 128, l (ix2 p j) * r (ix2 j o) :=
  Cert.LibPlainDot.dotGeneral_apply dot_S100000x128_S128x64_S100000x64_1_0_0_1_n_n rfl rfl rfl rfl rfl rfl none .single l r p o

/-- The host's product with the record of [100000, 64] against [64, 64], at one entry. -/
theorem dot64_apply (l : (⟨S100000x64, .f32⟩ : BufTy).Contents (Elt Ideal)) (r : (⟨S64x64, .f32⟩ : BufTy).Contents (Elt Ideal)) (p : Fin 100000) (o : Fin 64) :
    Host.dotGeneral (F := Ideal) (φ₁ := .f32) (φ₂ := .f32) dot_S100000x64_S64x64_S100000x64_1_0_0_1_n_n none l r (ix2 p o) = ∑ j : Fin 64, l (ix2 p j) * r (ix2 j o) :=
  Cert.LibPlainDot.dotGeneral_apply dot_S100000x64_S64x64_S100000x64_1_0_0_1_n_n rfl rfl rfl rfl rfl rfl none .single l r p o

/-- The host's product with the record of [100000, 64] against [64, 40], at one entry. -/
theorem dot40_apply (l : (⟨S100000x64, .f32⟩ : BufTy).Contents (Elt Ideal)) (r : (⟨S64x40, .f32⟩ : BufTy).Contents (Elt Ideal)) (p : Fin 100000) (o : Fin 40) :
    Host.dotGeneral (F := Ideal) (φ₁ := .f32) (φ₂ := .f32) dot_S100000x64_S64x40_S100000x40_1_0_0_1_n_n none l r (ix2 p o) = ∑ j : Fin 64, l (ix2 p j) * r (ix2 j o) :=
  Cert.LibPlainDot.dotGeneral_apply dot_S100000x64_S64x40_S100000x40_1_0_0_1_n_n rfl rfl rfl rfl rfl rfl none .single l r p o

/-- One dense step with its positive part, at one entry: the model's `denseRelu` of any matrix `X` that agrees with
    the input entry by entry. -/
theorem reluDense64_apply (x : (⟨S100000x64, .f32⟩ : BufTy).Contents (Elt Ideal)) (w : (⟨S64x64, .f32⟩ : BufTy).Contents (Elt Ideal)) (b : (⟨S64, .f32⟩ : BufTy).Contents (Elt Ideal))
    (X : Fin 100000 → Fin 64 → EReal) (hX : ∀ (p : Fin 100000) (j : Fin 64), x (ix2 p j) = X p j) (p : Fin 100000) (o : Fin 64) :
    reluDense64 x w b (ix2 p o) = Cert.Gin.denseRelu X (fun j o => w (ix2 j o)) (fun o => b (ix1 o)) p o := by
  unfold reluDense64 Cert.Gin.denseRelu Cert.Gin.dense
  refine congrArg₂ max (congrArg₂ (· + ·) ((dot64_apply x w p o).trans ?_) (bias64_apply b p o)) (zeros64_apply _)
  exact Finset.sum_congr rfl fun j _ => congrArg (· * w (ix2 j o)) (hX p j)

/-! ## The hidden features -/

/-- The hidden-features term is the model's first graph layer. -/
theorem hiddenTerm_eq (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal)) :
    hiddenTerm x e w1 b1 = Cert.Gin.hidden x e w1 b1 := by
  funext i
  obtain ⟨p, o, rfl⟩ : ∃ (p : Fin 100000) (o : Fin 64), i = ix2 p o := ⟨i 0, i 1, eq_ix2 i⟩
  unfold hiddenTerm Cert.Gin.hidden Cert.Gin.layer1 Cert.Gin.denseRelu Cert.Gin.dense
  exact congrArg₂ max (congrArg₂ (· + ·) (dot128_apply _ w1 p o) (bias64_apply b1 p o)) (zeros64_apply _)

/-! ## The logits -/

/-! ## The logits -/

/-- The logits term at one entry: the model's second graph layer and two classifier layers. -/
theorem logitsTerm_apply (h a : (⟨S100000x64, .f32⟩ : BufTy).Contents (Elt Ideal)) (w2 : (⟨S64x64, .f32⟩ : BufTy).Contents (Elt Ideal)) (b2 : (⟨S64, .f32⟩ : BufTy).Contents (Elt Ideal)) (wf1 : (⟨S64x64, .f32⟩ : BufTy).Contents (Elt Ideal)) (bf1 : (⟨S64, .f32⟩ : BufTy).Contents (Elt Ideal))
    (wf2 : (⟨S64x40, .f32⟩ : BufTy).Contents (Elt Ideal)) (bf2 : (⟨S40, .f32⟩ : BufTy).Contents (Elt Ideal)) (p : Fin 100000) (o : Fin 40) :
    logitsTerm h a w2 b2 wf1 bf1 wf2 bf2 (ix2 p o) = Cert.Gin.dense (Cert.Gin.denseRelu (Cert.Gin.layer1 (fun p j => h (ix2 p j)) (fun p j => a (ix2 p j)) (fun j o => w2 (ix2 j o)) (fun o => b2 (ix1 o))) (fun j o => wf1 (ix2 j o)) (fun o => bf1 (ix1 o))) (fun j o => wf2 (ix2 j o)) (fun o => bf2 (ix1 o)) p o := by
  have e1 : ∀ (p : Fin 100000) (j : Fin 64), reluDense64 (addf (F := Ideal) (φ := .f32) h a) w2 b2 (ix2 p j) = Cert.Gin.layer1 (fun p j => h (ix2 p j)) (fun p j => a (ix2 p j)) (fun j o => w2 (ix2 j o)) (fun o => b2 (ix1 o)) p j := fun p j => by
    unfold Cert.Gin.layer1
    exact reluDense64_apply (addf (F := Ideal) (φ := .f32) h a) w2 b2 (fun p j => h (ix2 p j) + a (ix2 p j)) (fun _ _ => rfl) p j
  have e2 : ∀ (p : Fin 100000) (j : Fin 64), reluDense64 (reluDense64 (addf (F := Ideal) (φ := .f32) h a) w2 b2) wf1 bf1 (ix2 p j) = Cert.Gin.denseRelu (Cert.Gin.layer1 (fun p j => h (ix2 p j)) (fun p j => a (ix2 p j)) (fun j o => w2 (ix2 j o)) (fun o => b2 (ix1 o))) (fun j o => wf1 (ix2 j o)) (fun o => bf1 (ix1 o)) p j :=
    fun p j => reluDense64_apply (reluDense64 (addf (F := Ideal) (φ := .f32) h a) w2 b2) wf1 bf1 (Cert.Gin.layer1 (fun p j => h (ix2 p j)) (fun p j => a (ix2 p j)) (fun j o => w2 (ix2 j o)) (fun o => b2 (ix1 o))) e1 p j
  unfold logitsTerm Cert.Gin.dense
  refine congrArg₂ (· + ·) ((dot40_apply _ wf2 p o).trans ?_) (bias40_apply bf2 p o)
  exact Finset.sum_congr rfl fun j _ => congrArg (· * wf2 (ix2 j o)) (e2 p j)

/-! ## The row-wise log-softmax

The steps that look through a row reduction are stated over an arbitrary vector, so that a reduction over the
whole array is only ever carried along, never opened. -/

/-- The larger of the minus-infinity word and any vector's entry, the word spelt as a repeated constant. -/
theorem max_bcast_apply (R : (⟨S100000, .f32⟩ : BufTy).Contents (Elt Ideal)) (p : Fin 100000) :
    maximumf (broadcastInDim S100000 ![] bcast_S_S100000 (constant (F := Ideal) S_ .f32 0xFF800000#32)) R (ix1 p) = max Cert.Gin.negInfWord (R (ix1 p)) :=
  congrArg (max · (R (ix1 p))) (broadcastInDim_apply _ bcast_S_S100000 (constant (F := Ideal) S_ .f32 0xFF800000#32) (ix1 p) ix0 (fun a => a.elim0))

/-- A row's largest entry: the fold of `max` over the row from the minus-infinity word. -/
theorem rowMaxTerm_apply (y : (⟨S100000x40, .f32⟩ : BufTy).Contents (Elt Ideal)) (p : Fin 100000) :
    rowMaxTerm y (ix1 p) = Cert.Gin.rowMax (fun p o => y (ix2 p o)) p := by
  unfold rowMaxTerm Cert.Gin.rowMax
  refine (max_bcast_apply _ p).trans ?_
  refine (congrArg (max Cert.Gin.negInfWord) (Cert.LibRowReduce.hostReduce_max_row y (constant (F := Ideal) S_ .f32 0xFF800000#32) reducesTo_S100000x40_S100000_d1 (by decide) h_S_ p)).trans ?_
  exact Cert.Gin.max_fold_max_self _ _ _

/-- The one-column matrix of a vector, at row p. -/
theorem col_apply (v : (⟨S100000, .f32⟩ : BufTy).Contents (Elt Ideal)) (p : Fin 100000) : col v (ix2 p (0 : Fin 1)) = v (ix1 p) := by
  unfold col
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- A one-column matrix repeated across the columns, at (p, o). -/
theorem wide_apply (c : (⟨S100000x1, .f32⟩ : BufTy).Contents (Elt Ideal)) (p : Fin 100000) (o : Fin 40) : wide c (ix2 p o) = c (ix2 p (0 : Fin 1)) := by
  unfold wide
  exact broadcastInDim_apply _ bcast_S100000x1_S100000x40_0_1 c (ix2 p o) (ix2 p (0 : Fin 1)) (fun a => match a with
    | ⟨0, _⟩ => by show p.val = if (100000 : Nat) = 1 then 0 else p.val; rw [if_neg (by decide)]
    | ⟨1, _⟩ => by show (0 : ℕ) = if (1 : Nat) = 1 then 0 else o.val; rw [if_pos rfl])

/-- An entry minus a vector's entry of its row, the vector spelt as a one-column matrix repeated across the columns. -/
theorem sub_wide_col_apply (y : (⟨S100000x40, .f32⟩ : BufTy).Contents (Elt Ideal)) (m : (⟨S100000, .f32⟩ : BufTy).Contents (Elt Ideal)) (p : Fin 100000) (o : Fin 40) :
    subf y (wide (col m)) (ix2 p o) = y (ix2 p o) - m (ix1 p) :=
  congrArg (y (ix2 p o) - ·) ((wide_apply (col m) p o).trans (col_apply m p))

/-- The shifted rows, at one entry. -/
theorem shiftTerm_apply (y : (⟨S100000x40, .f32⟩ : BufTy).Contents (Elt Ideal)) (p : Fin 100000) (o : Fin 40) :
    shiftTerm y (ix2 p o) = Cert.Gin.shifted (fun p o => y (ix2 p o)) p o := by
  unfold shiftTerm Cert.Gin.shifted
  exact (sub_wide_col_apply y _ p o).trans (congrArg (y (ix2 p o) - ·) (rowMaxTerm_apply y p))

/-- An entry minus the logarithm of a vector's entry of its row, the logarithm taken on the one-column matrix. -/
theorem sub_wide_log_apply (z : (⟨S100000x40, .f32⟩ : BufTy).Contents (Elt Ideal)) (s : (⟨S100000, .f32⟩ : BufTy).Contents (Elt Ideal)) (p : Fin 100000) (o : Fin 40) :
    subf z (wide (Host.log (col s))) (ix2 p o) = z (ix2 p o) - Ideal.log (s (ix1 p)) :=
  congrArg (z (ix2 p o) - ·) ((wide_apply (Host.log (col s)) p o).trans (congrArg Ideal.log (col_apply s p)))

/-- The log-softmax term at one entry: the model's `logSoftmax`. -/
theorem lsmTerm_apply (y : (⟨S100000x40, .f32⟩ : BufTy).Contents (Elt Ideal)) (p : Fin 100000) (o : Fin 40) :
    lsmTerm y (ix2 p o) = Cert.Gin.logSoftmax (fun p o => y (ix2 p o)) p o := by
  unfold lsmTerm Cert.Gin.logSoftmax
  refine (sub_wide_log_apply _ _ p o).trans ?_
  refine congrArg₂ (fun u v => u - Ideal.log v) (shiftTerm_apply y p o) ?_
  refine (Cert.LibRowReduce.hostReduceAdd_row (Host.exp (shiftTerm y)) (constant (F := Ideal) S_ .f32 0x00000000#32) reducesTo_S100000x40_S100000_d1 (by decide) h_S_ p).trans ?_
  refine (congrArg (· + _) Ideal.ofBits_zero_f32).trans ((zero_add _).trans ?_)
  exact Finset.sum_congr rfl fun o' _ => congrArg Ideal.exp (shiftTerm_apply y p o')

/-! ## The classifier -/

/-- The log-softmax of the logits term is the model's classifier. -/
theorem classify_eq (h a : (⟨S100000x64, .f32⟩ : BufTy).Contents (Elt Ideal)) (w2 : (⟨S64x64, .f32⟩ : BufTy).Contents (Elt Ideal)) (b2 : (⟨S64, .f32⟩ : BufTy).Contents (Elt Ideal)) (wf1 : (⟨S64x64, .f32⟩ : BufTy).Contents (Elt Ideal)) (bf1 : (⟨S64, .f32⟩ : BufTy).Contents (Elt Ideal))
    (wf2 : (⟨S64x40, .f32⟩ : BufTy).Contents (Elt Ideal)) (bf2 : (⟨S40, .f32⟩ : BufTy).Contents (Elt Ideal)) :
    lsmTerm (logitsTerm h a w2 b2 wf1 bf1 wf2 bf2) = Cert.Gin.classify h a w2 b2 wf1 bf1 wf2 bf2 := by
  funext i
  obtain ⟨p, o, rfl⟩ : ∃ (p : Fin 100000) (o : Fin 40), i = ix2 p o := ⟨i 0, i 1, eq_ix2 i⟩
  refine (lsmTerm_apply _ p o).trans ?_
  unfold Cert.Gin.classify Cert.Gin.head
  exact congrArg (fun Y => Cert.Gin.logSoftmax Y p o)
    (funext fun p => funext fun o => logitsTerm_apply h a w2 b2 wf1 bf1 wf2 bf2 p o)

end Cert.ReferenceIdeal.RefMath

end
-- ==== Proof.RefValue.lean ====
/-
  The reference program's result is the model's output, and it leaves its arguments as they were.

  The run ends with every buffer at the four lists' results, in order, over the launch contents.  The fourth list
  leaves the log-softmax of the logits; the third leaves the logits of the hidden features, their neighbour sum and
  the weights; the second leaves that neighbour sum, from the two rows of the edge list; the first leaves the hidden
  features and the two rows.  No list writes an argument.  Entry by entry on the extended reals the hidden-features
  term is the model's first graph layer and the log-softmax of the logits term is the model's classifier, which is
  the model's output of the ten argument arrays.
-/
import proofs.«166975_j85272280694875_1_alg».proof.Proof.Model
import proofs.«166975_j85272280694875_1_alg».proof.Proof.RefRun
import proofs.«166975_j85272280694875_1_alg».proof.Proof.RefLists
import proofs.«166975_j85272280694875_1_alg».proof.Proof.RefMath

set_option maxHeartbeats 400000

noncomputable section

namespace Cert.ReferenceIdeal.RefValue

open Cert.ReferenceIdeal Idealize.ShloMosaic Idealize.ShloMosaic.TcCoe Idealize.SL.Sem
open Cert.ReferenceIdeal.Gen Cert.ReferenceIdeal.RefRun Cert.ReferenceIdeal.RefTerms Cert.ReferenceIdeal.RefLists Cert.ReferenceIdeal.RefMath
open Idealize.ShloMosaic.StableHlo

/-- The result buffer after the four lists is the model's output of the ten argument arrays. -/
theorem value_eq (U : Valuation τ sig (Elt Ideal)) :
    after ops4 (after ops3 (after ops2 (after ops1 U))) (Proc.devRef .tc main_v45)
      = Cert.Gin.output (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) := by
  rw [ops4_v45, ops3_v44]
  rw [ops2_v29, ops2_v19, ops2_arg4, ops2_arg5, ops2_arg6, ops2_arg7, ops2_arg8, ops2_arg9]
  rw [ops1_v19, ops1_v1, ops1_v3, ops1_arg4, ops1_arg5, ops1_arg6, ops1_arg7, ops1_arg8, ops1_arg9]
  rw [hiddenTerm_eq]
  unfold Cert.Gin.output Cert.Gin.agg64
  exact classify_eq _ _ _ _ _ _ _ _

/-- Argument 0 is written by none of the four lists. -/
theorem keep_arg0 (U : Valuation τ sig (Elt Ideal)) :
    after ops4 (after ops3 (after ops2 (after ops1 U))) (Proc.devRef .tc main_arg0) = U (Proc.devRef .tc main_arg0) := by
  rw [ops4_arg0, ops3_arg0, ops2_arg0, ops1_arg0]

/-- Argument 1 is written by none of the four lists. -/
theorem keep_arg1 (U : Valuation τ sig (Elt Ideal)) :
    after ops4 (after ops3 (after ops2 (after ops1 U))) (Proc.devRef .tc main_arg1) = U (Proc.devRef .tc main_arg1) := by
  rw [ops4_arg1, ops3_arg1, ops2_arg1, ops1_arg1]

/-- Argument 2 is written by none of the four lists. -/
theorem keep_arg2 (U : Valuation τ sig (Elt Ideal)) :
    after ops4 (after ops3 (after ops2 (after ops1 U))) (Proc.devRef .tc main_arg2) = U (Proc.devRef .tc main_arg2) := by
  rw [ops4_arg2, ops3_arg2, ops2_arg2, ops1_arg2]

/-- Argument 3 is written by none of the four lists. -/
theorem keep_arg3 (U : Valuation τ sig (Elt Ideal)) :
    after ops4 (after ops3 (after ops2 (after ops1 U))) (Proc.devRef .tc main_arg3) = U (Proc.devRef .tc main_arg3) := by
  rw [ops4_arg3, ops3_arg3, ops2_arg3, ops1_arg3]

/-- Argument 4 is written by none of the four lists. -/
theorem keep_arg4 (U : Valuation τ sig (Elt Ideal)) :
    after ops4 (after ops3 (after ops2 (after ops1 U))) (Proc.devRef .tc main_arg4) = U (Proc.devRef .tc main_arg4) := by
  rw [ops4_arg4, ops3_arg4, ops2_arg4, ops1_arg4]

/-- Argument 5 is written by none of the four lists. -/
theorem keep_arg5 (U : Valuation τ sig (Elt Ideal)) :
    after ops4 (after ops3 (after ops2 (after ops1 U))) (Proc.devRef .tc main_arg5) = U (Proc.devRef .tc main_arg5) := by
  rw [ops4_arg5, ops3_arg5, ops2_arg5, ops1_arg5]

/-- Argument 6 is written by none of the four lists. -/
theorem keep_arg6 (U : Valuation τ sig (Elt Ideal)) :
    after ops4 (after ops3 (after ops2 (after ops1 U))) (Proc.devRef .tc main_arg6) = U (Proc.devRef .tc main_arg6) := by
  rw [ops4_arg6, ops3_arg6, ops2_arg6, ops1_arg6]

/-- Argument 7 is written by none of the four lists. -/
theorem keep_arg7 (U : Valuation τ sig (Elt Ideal)) :
    after ops4 (after ops3 (after ops2 (after ops1 U))) (Proc.devRef .tc main_arg7) = U (Proc.devRef .tc main_arg7) := by
  rw [ops4_arg7, ops3_arg7, ops2_arg7, ops1_arg7]

/-- Argument 8 is written by none of the four lists. -/
theorem keep_arg8 (U : Valuation τ sig (Elt Ideal)) :
    after ops4 (after ops3 (after ops2 (after ops1 U))) (Proc.devRef .tc main_arg8) = U (Proc.devRef .tc main_arg8) := by
  rw [ops4_arg8, ops3_arg8, ops2_arg8, ops1_arg8]

/-- Argument 9 is written by none of the four lists. -/
theorem keep_arg9 (U : Valuation τ sig (Elt Ideal)) :
    after ops4 (after ops3 (after ops2 (after ops1 U))) (Proc.devRef .tc main_arg9) = U (Proc.devRef .tc main_arg9) := by
  rw [ops4_arg9, ops3_arg9, ops2_arg9, ops1_arg9]

/-- On every device, from any memory with zero counters: every weakly fair execution of the reference program
    terminates with the result buffer at the model's output of the ten argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v45) = Cert.Gin.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
    ⟨(h c main_v45).trans (value_eq (launchContents m c)),
     (h c main_arg0).trans (keep_arg0 (launchContents m c)),
     (h c main_arg1).trans (keep_arg1 (launchContents m c)),
     (h c main_arg2).trans (keep_arg2 (launchContents m c)),
     (h c main_arg3).trans (keep_arg3 (launchContents m c)),
     (h c main_arg4).trans (keep_arg4 (launchContents m c)),
     (h c main_arg5).trans (keep_arg5 (launchContents m c)),
     (h c main_arg6).trans (keep_arg6 (launchContents m c)),
     (h c main_arg7).trans (keep_arg7 (launchContents m c)),
     (h c main_arg8).trans (keep_arg8 (launchContents m c)),
     (h c main_arg9).trans (keep_arg9 (launchContents m c))⟩)
    (RefRun.run m ρ)

end Cert.ReferenceIdeal.RefValue

end
-- ==== Proof.lean ====
/-
  The certificate of a two-layer graph network's node classifier: a kernel program of two pipelined regions among host
  operations, against a plain host program.

  Both compute, from node features x, an edge list and four dense layers,
      hidden = positive part of ((x + neighbour sum of x) · W1 + b1)
      output = row-wise log-softmax of
                 positive part of (positive part of ((hidden + neighbour sum of hidden) · W2 + b2) · Wf1 + bf1) · Wf2 + bf2.
  The neighbour sum (a gather of rows at the edges' sources, added into the rows of the edges' destinations) is
  spelt by both programs with the same host operations on the same words: it is carried as one function applied to
  equal arguments.  What differs is only arrangement: the kernel program computes each half on twenty blocks of 5000
  rows, narrows matrix operands on the way into the matrix unit (the identity on the extended reals), accumulates
  each product into a zero matrix, passes biases as one-row matrices, and takes each row's maximum without the
  reference's extra comparison against minus infinity.  On the extended reals all of these are equalities of sums
  and folds taken in the same order, so no finiteness of the inputs is used.

  Kernel side: KernelRun (the run with the result named), Layer1Value and HeadValue (each region's output array as one
  function of the arrays it finds), KernelHost (the host operations read), KernelModel and KernelValue (the result is
  `Cert.Gin.output` of the arguments).  Reference side: RefRun and RefValue (the same function).  The three frame
  claims are the generated frames of the two kernel programs and the reference's run with the result dropped; nothing
  was rewritten by the idealization, so there is nothing to preserve.
-/
import proofs.«166975_j85272280694875_1_alg».proof.Defs
import proofs.«166975_j85272280694875_1_alg».proof.Proof.Gen.Kernel
import proofs.«166975_j85272280694875_1_alg».proof.Proof.Gen.Kernel.Frame
import proofs.«166975_j85272280694875_1_alg».proof.Proof.Gen.KernelIdeal
import proofs.«166975_j85272280694875_1_alg».proof.Proof.Gen.KernelIdeal.Frame
import proofs.«166975_j85272280694875_1_alg».proof.Proof.Gen.ReferenceIdeal
import proofs.«166975_j85272280694875_1_alg».proof.Proof.Gen.Pre_finite_inputs
import proofs.«166975_j85272280694875_1_alg».proof.Proof.KernelValue
import proofs.«166975_j85272280694875_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end with the result array at the network's output of their argument arrays; the
    arguments agree, so the results are equal. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
